-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S170000x128 : Shape := ⟨2, ![170000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x1200000 : Shape := ⟨2, ![2, 1200000]⟩
abbrev S_ : Shape := ⟨0, ![]⟩

class Facts : Prop where
  bcast_S_S170000x128 : S_.BroadcastsInDim S170000x128 (![] : Fin 0 → Fin S170000x128.rank)
  reducesTo_S170000x128_S_d0_1 : S170000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S170000x128 .f32) (main_arg1 : FVec F S128x128 .f32) (main_arg2 : FVec F S128 .f32) (main_arg3 : FVec F S128x40 .f32) (main_arg4 : FVec F S40 .f32) (main_arg5 : IVec S2x1200000 32) : IVec S_ 1 :=
  let main_v0 : FVec F S170000x128 .f32 := Host.absf main_arg0
  let main_cst : FVec F S_ .f32 := constant S_ .f32 0x7F800000#32
  let main_v1 : FVec F S170000x128 .f32 := broadcastInDim S170000x128 ![] bcast_S_S170000x128 main_cst
  let main_v2 : IVec S170000x128 1 := cmpf .olt main_v0 main_v1
  let main_c : IVec S_ 1 := constantI S_ 1 1#1
  let main_v3 : IVec S_ 1 := (fun x v => Host.reduce IntOp.andi x v reducesTo_S170000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_v13 main_v16
-- ==== Kernel.lean ====
abbrev S170000x128 : Shape := ⟨2, ![170000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x1200000 : Shape := ⟨2, ![2, 1200000]⟩
abbrev S170000 : Shape := ⟨1, ![170000]⟩
abbrev S1x1200000 : Shape := ⟨2, ![1, 1200000]⟩
abbrev S1200000 : Shape := ⟨1, ![1200000]⟩
abbrev S1370000 : Shape := ⟨1, ![1370000]⟩
abbrev S_ : Shape := ⟨0, ![]⟩
abbrev S1370000x1 : Shape := ⟨2, ![1370000, 1]⟩
abbrev S6800x128 : Shape := ⟨2, ![6800, 128]⟩
abbrev S1370000x128 : Shape := ⟨2, ![1370000, 128]⟩
abbrev S1x128 : Shape := ⟨2, ![1, 128]⟩
abbrev S170000x40 : Shape := ⟨2, ![170000, 40]⟩
abbrev S6800x40 : Shape := ⟨2, ![6800, 40]⟩
abbrev S1370000x40 : Shape := ⟨2, ![1370000, 40]⟩
abbrev S1x40 : Shape := ⟨2, ![1, 40]⟩

abbrev nBuf : Space → Nat
  | .hbm => 84
  | .vmem => 20
  | .smem => 0
  | _ => 0

abbrev bufTy : (tb : Table) → Fin (tcTables nBuf tb) → BufTy
  | .hbm, ⟨0, _⟩ => ⟨S170000x128, .f32⟩
  | .hbm, ⟨1, _⟩ => ⟨S128x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S2x1200000, .i32⟩
  | .hbm, ⟨6, _⟩ => ⟨S170000, .i32⟩
  | .hbm, ⟨7, _⟩ => ⟨S1x1200000, .i32⟩
  | .hbm, ⟨8, _⟩ => ⟨S1200000, .i32⟩
  | .hbm, ⟨9, _⟩ => ⟨S1370000, .i32⟩
  | .hbm, ⟨10, _⟩ => ⟨S1x1200000, .i32⟩
  | .hbm, ⟨11, _⟩ => ⟨S1200000, .i32⟩
  | .hbm, ⟨12, _⟩ => ⟨S1370000, .i32⟩
  | .hbm, ⟨13, _⟩ => ⟨S_, .f32⟩
  | .hbm, ⟨14, _⟩ => ⟨S1370000, .f32⟩
  | .hbm, ⟨15, _⟩ => ⟨S_, .f32⟩
  | .hbm, ⟨16, _⟩ => ⟨S170000, .f32⟩
  | .hbm, ⟨17, _⟩ => ⟨S1370000x1, .i32⟩
  | .hbm, ⟨18, _⟩ => ⟨S170000, .f32⟩
  | .hbm, ⟨19, _⟩ => ⟨S_, .f32⟩
  | .hbm, ⟨20, _⟩ => ⟨S170000, .f32⟩
  | .hbm, ⟨21, _⟩ => ⟨S170000, .i1⟩
  | .hbm, ⟨22, _⟩ => ⟨S170000, .f32⟩
  | .hbm, ⟨23, _⟩ => ⟨S_, .f32⟩
  | .hbm, ⟨24, _⟩ => ⟨S_, .f32⟩
  | .hbm, ⟨25, _⟩ => ⟨S170000, .f32⟩
  | .hbm, ⟨26, _⟩ => ⟨S170000, .f32⟩
  | .hbm, ⟨27, _⟩ => ⟨S_, .i32⟩
  | .hbm, ⟨28, _⟩ => ⟨S1370000, .i32⟩
  | .hbm, ⟨29, _⟩ => ⟨S1370000, .i1⟩
  | .hbm, ⟨30, _⟩ => ⟨S_, .i32⟩
  | .hbm, ⟨31, _⟩ => ⟨S1370000, .i32⟩
  | .hbm, ⟨32, _⟩ => ⟨S1370000, .i32⟩
  | .hbm, ⟨33, _⟩ => ⟨S1370000, .i32⟩
  | .hbm, ⟨34, _⟩ => ⟨S1370000x1, .i32⟩
  | .hbm, ⟨35, _⟩ => ⟨S1370000, .f32⟩
  | .hbm, ⟨36, _⟩ => ⟨S_, .i32⟩
  | .hbm, ⟨37, _⟩ => ⟨S1370000, .i32⟩
  | .hbm, ⟨38, _⟩ => ⟨S1370000, .i1⟩
  | .hbm, ⟨39, _⟩ => ⟨S_, .i32⟩
  | .hbm, ⟨40, _⟩ => ⟨S1370000, .i32⟩
  | .hbm, ⟨41, _⟩ => ⟨S1370000, .i32⟩
  | .hbm, ⟨42, _⟩ => ⟨S1370000, .i32⟩
  | .hbm, ⟨43, _⟩ => ⟨S1370000x1, .i32⟩
  | .hbm, ⟨44, _⟩ => ⟨S1370000, .f32⟩
  | .hbm, ⟨45, _⟩ => ⟨S1370000, .f32⟩
  | .hbm, ⟨46, _⟩ => ⟨S170000x128, .f32⟩
  | .hbm, ⟨47, _⟩ => ⟨S_, .i32⟩
  | .hbm, ⟨48, _⟩ => ⟨S1370000, .i32⟩
  | .hbm, ⟨49, _⟩ => ⟨S1370000, .i1⟩
  | .hbm, ⟨50, _⟩ => ⟨S_, .i32⟩
  | .hbm, ⟨51, _⟩ => ⟨S1370000, .i32⟩
  | .hbm, ⟨52, _⟩ => ⟨S1370000, .i32⟩
  | .hbm, ⟨53, _⟩ => ⟨S1370000, .i32⟩
  | .hbm, ⟨54, _⟩ => ⟨S1370000x1, .i32⟩
  | .hbm, ⟨55, _⟩ => ⟨S1370000x128, .f32⟩
  | .hbm, ⟨56, _⟩ => ⟨S1370000x1, .f32⟩
  | .hbm, ⟨57, _⟩ => ⟨S1370000x128, .f32⟩
  | .hbm, ⟨58, _⟩ => ⟨S1370000x128, .f32⟩
  | .hbm, ⟨59, _⟩ => ⟨S_, .f32⟩
  | .hbm, ⟨60, _⟩ => ⟨S170000x128, .f32⟩
  | .hbm, ⟨61, _⟩ => ⟨S1370000x1, .i32⟩
  | .hbm, ⟨62, _⟩ => ⟨S170000x128, .f32⟩
  | .hbm, ⟨63, _⟩ => ⟨S1x128, .f32⟩
  | .hbm, ⟨64, _⟩ => ⟨S170000x128, .f32⟩
  | .hbm, ⟨65, _⟩ => ⟨S170000x40, .f32⟩
  | .hbm, ⟨66, _⟩ => ⟨S_, .i32⟩
  | .hbm, ⟨67, _⟩ => ⟨S1370000, .i32⟩
  | .hbm, ⟨68, _⟩ => ⟨S1370000, .i1⟩
  | .hbm, ⟨69, _⟩ => ⟨S_, .i32⟩
  | .hbm, ⟨70, _⟩ => ⟨S1370000, .i32⟩
  | .hbm, ⟨71, _⟩ => ⟨S1370000, .i32⟩
  | .hbm, ⟨72, _⟩ => ⟨S1370000, .i32⟩
  | .hbm, ⟨73, _⟩ => ⟨S1370000x1, .i32⟩
  | .hbm, ⟨74, _⟩ => ⟨S1370000x40, .f32⟩
  | .hbm, ⟨75, _⟩ => ⟨S1370000x1, .f32⟩
  | .hbm, ⟨76, _⟩ => ⟨S1370000x40, .f32⟩
  | .hbm, ⟨77, _⟩ => ⟨S1370000x40, .f32⟩
  | .hbm, ⟨78, _⟩ => ⟨S_, .f32⟩
  | .hbm, ⟨79, _⟩ => ⟨S170000x40, .f32⟩
  | .hbm, ⟨80, _⟩ => ⟨S1370000x1, .i32⟩
  | .hbm, ⟨81, _⟩ => ⟨S170000x40, .f32⟩
  | .hbm, ⟨82, _⟩ => ⟨S1x40, .f32⟩
  | .hbm, ⟨83, _⟩ => ⟨S170000x40, .f32⟩
  | .local _ .vmem, ⟨0, _⟩ => ⟨S6800x128, .f32⟩
  | .local _ .vmem, ⟨1, _⟩ => ⟨S6800x128, .f32⟩
  | .local _ .vmem, ⟨2, _⟩ => ⟨S128x128, .f32⟩
  | .local _ .vmem, ⟨3, _⟩ => ⟨S6800x128, .f32⟩
  | .local _ .vmem, ⟨4, _⟩ => ⟨S6800x128, .f32⟩
  | .local _ .vmem, ⟨5, _⟩ => ⟨S6800x128, .f32⟩
  | .local _ .vmem, ⟨6, _⟩ => ⟨S6800x128, .f32⟩
  | .local _ .vmem, ⟨7, _⟩ => ⟨S1x128, .f32⟩
  | .local _ .vmem, ⟨8, _⟩ => ⟨S6800x128, .f32⟩
  | .local _ .vmem, ⟨9, _⟩ => ⟨S6800x128, .f32⟩
  | .local _ .vmem, ⟨10, _⟩ => ⟨S6800x128, .f32⟩
  | .local _ .vmem, ⟨11, _⟩ => ⟨S6800x128, .f32⟩
  | .local _ .vmem, ⟨12, _⟩ => ⟨S128x40, .f32⟩
  | .local _ .vmem, ⟨13, _⟩ => ⟨S6800x40, .f32⟩
  | .local _ .vmem, ⟨14, _⟩ => ⟨S6800x40, .f32⟩
  | .local _ .vmem, ⟨15, _⟩ => ⟨S6800x40, .f32⟩
  | .local _ .vmem, ⟨16, _⟩ => ⟨S6800x40, .f32⟩
  | .local _ .vmem, ⟨17, _⟩ => ⟨S1x40, .f32⟩
  | .local _ .vmem, ⟨18, _⟩ => ⟨S6800x40, .f32⟩
  | .local _ .vmem, ⟨19, _⟩ => ⟨S6800x40, .f32⟩
  | _, _ => ⟨S170000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S6800x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S6800x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S6800x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6800x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S6800x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S170000_S1370000_d0 : Shape.Concatenates [S1200000, S170000] S1370000 0
  slices_S2x1200000_S1x1200000_1_0 : S2x1200000.Slices ![1, 0] S1x1200000
  bcast_S_S1370000 : S_.BroadcastsInDim S1370000 (![] : Fin 0 → Fin S1370000.rank)
  bcast_S_S170000 : S_.BroadcastsInDim S170000 (![] : Fin 0 → Fin S170000.rank)
  bcast_S1370000_S1370000x1_0 : S1370000.BroadcastsInDim S1370000x1 (![0] : Fin 1 → Fin S1370000x1.rank)
  inb_S6800x128_S6800x128_0_0 : ∀ a, (![0, 0] : Fin 2 → Nat) a + S6800x128.size a ≤ S6800x128.size a
  h_S6800x128 : 0 < S6800x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1370000x1_S1370000x128_0_1 : S1370000x1.BroadcastsInDim S1370000x128 (![0, 1] : Fin 2 → Fin S1370000x128.rank)
  bcast_S_S170000x128 : S_.BroadcastsInDim S170000x128 (![] : Fin 0 → Fin S170000x128.rank)
  shapeCasts_S128_S1x128 : S128.ShapeCasts S1x128
  shapeCasts_S6800x128_S6800x128 : S6800x128.ShapeCasts S6800x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6800x128 : S1x128.Broadcasts S6800x128
  inb_S128x40_S128x40_0_0 : ∀ a, (![0, 0] : Fin 2 → Nat) a + S128x40.size a ≤ S128x40.size a
  h_S128x40 : 0 < S128x40.numel
  inb_S6800x40_S6800x40_0_0 : ∀ a, (![0, 0] : Fin 2 → Nat) a + S6800x40.size a ≤ S6800x40.size a
  h_S6800x40 : 0 < S6800x40.numel
  bcast_S1370000x1_S1370000x40_0_1 : S1370000x1.BroadcastsInDim S1370000x40 (![0, 1] : Fin 2 → Fin S1370000x40.rank)
  bcast_S_S170000x40 : S_.BroadcastsInDim S170000x40 (![] : Fin 0 → Fin S170000x40.rank)
  shapeCasts_S40_S1x40 : S40.ShapeCasts S1x40
  shapeCasts_S6800x40_S6800x40 : S6800x40.ShapeCasts S6800x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S6800x40 : S1x40.Broadcasts S6800x40
  scatter_S170000_S1370000x1_S1370000_n_0_0_1_wf : ScatterDims.WF S170000 S1370000x1 S1370000 [] [0] [0] 1
  gather_S170000_S1370000x1_S1370000_n_0_n_n_0_1_1_wf : GatherDims.WF S170000 S1370000x1 S1370000 [] [0] [] [0] [] 1 ![1]
  dot_S6800x128_S128x128_S6800x128_1_0_0_1_n_n_wf : DotDims.WF S6800x128 S128x128 S6800x128 [1] [0] [0] [1] [] []
  gather_S170000x128_S1370000x1_S1370000x128_1_0_n_n_0_1_1128_wf : GatherDims.WF S170000x128 S1370000x1 S1370000x128 [1] [0] [] [0] [] 1 ![1, 128]
  scatter_S170000x128_S1370000x1_S1370000x128_1_0_0_1_wf : ScatterDims.WF S170000x128 S1370000x1 S1370000x128 [1] [0] [0] 1
  dot_S6800x128_S128x40_S6800x40_1_0_0_1_n_n_wf : DotDims.WF S6800x128 S128x40 S6800x40 [1] [0] [0] [1] [] []
  gather_S170000x40_S1370000x1_S1370000x40_1_0_n_n_0_1_140_wf : GatherDims.WF S170000x40 S1370000x1 S1370000x40 [1] [0] [] [0] [] 1 ![1, 40]
  scatter_S170000x40_S1370000x1_S1370000x40_1_0_0_1_wf : ScatterDims.WF S170000x40 S1370000x1 S1370000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6800x128.size a ≤ S170000x128.size a
  hwx0_0 : ∀ i : grid0.Coords, EltTy.bits .f32 = 32 ∨ (Rect.block (s := S170000x128) S6800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6800x128.size a ≤ S170000x128.size a
  hwx0_2 : ∀ i : grid0.Coords, EltTy.bits .f32 = 32 ∨ (Rect.block (s := S170000x128) S6800x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6800x128.size a ≤ S170000x128.size a
  hwx1_0 : ∀ i : grid1.Coords, EltTy.bits .f32 = 32 ∨ (Rect.block (s := S170000x128) S6800x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6800x128.size a ≤ S170000x128.size a
  hwx1_2 : ∀ i : grid1.Coords, EltTy.bits .f32 = 32 ∨ (Rect.block (s := S170000x128) S6800x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6800x128.size a ≤ S170000x128.size a
  hwx2_0 : ∀ i : grid2.Coords, EltTy.bits .f32 = 32 ∨ (Rect.block (s := S170000x128) S6800x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S6800x40.size a ≤ S170000x40.size a
  hwx2_2 : ∀ i : grid2.Coords, EltTy.bits .f32 = 32 ∨ (Rect.block (s := S170000x40) S6800x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6800x40.size a ≤ S170000x40.size a
  hwx3_0 : ∀ i : grid3.Coords, EltTy.bits .f32 = 32 ∨ (Rect.block (s := S170000x40) S6800x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S6800x40.size a ≤ S170000x40.size a
  hwx3_2 : ∀ i : grid3.Coords, EltTy.bits .f32 = 32 ∨ (Rect.block (s := S170000x40) S6800x40.size (cc3_transform_2 i) (hinb3_2 i)).WholeWords (EltTy.packing .f32)

variable [Facts₀]

def scatter_S170000_S1370000x1_S1370000_n_0_0_1 : ScatterDims S170000 S1370000x1 S1370000 where
  updateWindowDims := []
  insertedWindowDims := [0]
  scatterDimsToOperandDims := [0]
  indexVectorDim := 1
  wf := scatter_S170000_S1370000x1_S1370000_n_0_0_1_wf
def gather_S170000_S1370000x1_S1370000_n_0_n_n_0_1_1 : GatherDims S170000 S1370000x1 S1370000 where
  offsetDims := []
  collapsedSliceDims := [0]
  operandBatchingDims := []
  startIndicesBatchingDims := []
  startIndexMap := [0]
  indexVectorDim := 1
  sliceSizes := ![1]
  wf := gather_S170000_S1370000x1_S1370000_n_0_n_n_0_1_1_wf
def dot_S6800x128_S128x128_S6800x128_1_0_0_1_n_n : DotDims S6800x128 S128x128 S6800x128 where
  lhsContracting := [1]
  rhsContracting := [0]
  lhsNonContracting := [0]
  rhsNonContracting := [1]
  lhsBatch := []
  rhsBatch := []
  wf := dot_S6800x128_S128x128_S6800x128_1_0_0_1_n_n_wf
def gather_S170000x128_S1370000x1_S1370000x128_1_0_n_n_0_1_1128 : GatherDims S170000x128 S1370000x1 S1370000x128 where
  offsetDims := [1]
  collapsedSliceDims := [0]
  operandBatchingDims := []
  startIndicesBatchingDims := []
  startIndexMap := [0]
  indexVectorDim := 1
  sliceSizes := ![1, 128]
  wf := gather_S170000x128_S1370000x1_S1370000x128_1_0_n_n_0_1_1128_wf
def scatter_S170000x128_S1370000x1_S1370000x128_1_0_0_1 : ScatterDims S170000x128 S1370000x1 S1370000x128 where
  updateWindowDims := [1]
  insertedWindowDims := [0]
  scatterDimsToOperandDims := [0]
  indexVectorDim := 1
  wf := scatter_S170000x128_S1370000x1_S1370000x128_1_0_0_1_wf
def dot_S6800x128_S128x40_S6800x40_1_0_0_1_n_n : DotDims S6800x128 S128x40 S6800x40 where
  lhsContracting := [1]
  rhsContracting := [0]
  lhsNonContracting := [0]
  rhsNonContracting := [1]
  lhsBatch := []
  rhsBatch := []
  wf := dot_S6800x128_S128x40_S6800x40_1_0_0_1_n_n_wf
def gather_S170000x40_S1370000x1_S1370000x40_1_0_n_n_0_1_140 : GatherDims S170000x40 S1370000x1 S1370000x40 where
  offsetDims := [1]
  collapsedSliceDims := [0]
  operandBatchingDims := []
  startIndicesBatchingDims := []
  startIndexMap := [0]
  indexVectorDim := 1
  sliceSizes := ![1, 40]
  wf := gather_S170000x40_S1370000x1_S1370000x40_1_0_n_n_0_1_140_wf
def scatter_S170000x40_S1370000x1_S1370000x40_1_0_0_1 : ScatterDims S170000x40 S1370000x1 S1370000x40 where
  updateWindowDims := [1]
  insertedWindowDims := [0]
  scatterDimsToOperandDims := [0]
  indexVectorDim := 1
  wf := scatter_S170000x40_S1370000x1_S1370000x40_1_0_0_1_wf

abbrev win0_0 : Pipeline.Window sig grid0 :=
  Pipeline.Window.ofSpec (Memref.whole main_arg0) S6800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S6800x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S6800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S6800x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S6800x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S6800x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S6800x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S6800x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S170000x128 : Shape := ⟨2, ![170000, 128]⟩
abbrev S128x128 : Shape := ⟨2, ![128, 128]⟩
abbrev S128 : Shape := ⟨1, ![128]⟩
abbrev S128x40 : Shape := ⟨2, ![128, 40]⟩
abbrev S40 : Shape := ⟨1, ![40]⟩
abbrev S2x1200000 : Shape := ⟨2, ![2, 1200000]⟩
abbrev S170000 : Shape := ⟨1, ![170000]⟩
abbrev S1x1200000 : Shape := ⟨2, ![1, 1200000]⟩
abbrev S1200000 : Shape := ⟨1, ![1200000]⟩
abbrev S1370000 : Shape := ⟨1, ![1370000]⟩
abbrev S_ : Shape := ⟨0, ![]⟩
abbrev S1370000x1 : Shape := ⟨2, ![1370000, 1]⟩
abbrev S1370000x128 : Shape := ⟨2, ![1370000, 128]⟩
abbrev S1x128 : Shape := ⟨2, ![1, 128]⟩
abbrev S170000x40 : Shape := ⟨2, ![170000, 40]⟩
abbrev S1370000x40 : Shape := ⟨2, ![1370000, 40]⟩
abbrev S1x40 : Shape := ⟨2, ![1, 40]⟩

abbrev nBuf : Space → Nat
  | .hbm => 122
  | .vmem => 0
  | .smem => 0
  | _ => 0

abbrev bufTy : (tb : Table) → Fin (tcTables nBuf tb) → BufTy
  | .hbm, ⟨0, _⟩ => ⟨S170000x128, .f32⟩
  | .hbm, ⟨1, _⟩ => ⟨S128x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S2x1200000, .i32⟩
  | .hbm, ⟨6, _⟩ => ⟨S170000, .i32⟩
  | .hbm, ⟨7, _⟩ => ⟨S1x1200000, .i32⟩
  | .hbm, ⟨8, _⟩ => ⟨S1200000, .i32⟩
  | .hbm, ⟨9, _⟩ => ⟨S1370000, .i32⟩
  | .hbm, ⟨10, _⟩ => ⟨S1x1200000, .i32⟩
  | .hbm, ⟨11, _⟩ => ⟨S1200000, .i32⟩
  | .hbm, ⟨12, _⟩ => ⟨S1370000, .i32⟩
  | .hbm, ⟨13, _⟩ => ⟨S170000x128, .f32⟩
  | .hbm, ⟨14, _⟩ => ⟨S_, .f32⟩
  | .hbm, ⟨15, _⟩ => ⟨S1370000, .f32⟩
  | .hbm, ⟨16, _⟩ => ⟨S_, .f32⟩
  | .hbm, ⟨17, _⟩ => ⟨S170000, .f32⟩
  | .hbm, ⟨18, _⟩ => ⟨S1370000x1, .i32⟩
  | .hbm, ⟨19, _⟩ => ⟨S170000, .f32⟩
  | .hbm, ⟨20, _⟩ => ⟨S_, .f32⟩
  | .hbm, ⟨21, _⟩ => ⟨S170000, .f32⟩
  | .hbm, ⟨22, _⟩ => ⟨S170000, .i1⟩
  | .hbm, ⟨23, _⟩ => ⟨S170000, .f32⟩
  | .hbm, ⟨24, _⟩ => ⟨S_, .f32⟩
  | .hbm, ⟨25, _⟩ => ⟨S_, .f32⟩
  | .hbm, ⟨26, _⟩ => ⟨S170000, .f32⟩
  | .hbm, ⟨27, _⟩ => ⟨S170000, .f32⟩
  | .hbm, ⟨28, _⟩ => ⟨S_, .i32⟩
  | .hbm, ⟨29, _⟩ => ⟨S1370000, .i32⟩
  | .hbm, ⟨30, _⟩ => ⟨S1370000, .i1⟩
  | .hbm, ⟨31, _⟩ => ⟨S_, .i32⟩
  | .hbm, ⟨32, _⟩ => ⟨S1370000, .i32⟩
  | .hbm, ⟨33, _⟩ => ⟨S1370000, .i32⟩
  | .hbm, ⟨34, _⟩ => ⟨S1370000, .i32⟩
  | .hbm, ⟨35, _⟩ => ⟨S1370000x1, .i32⟩
  | .hbm, ⟨36, _⟩ => ⟨S1370000, .f32⟩
  | .hbm, ⟨37, _⟩ => ⟨S_, .i32⟩
  | .hbm, ⟨38, _⟩ => ⟨S1370000, .i32⟩
  | .hbm, ⟨39, _⟩ => ⟨S1370000, .i1⟩
  | .hbm, ⟨40, _⟩ => ⟨S_, .i32⟩
  | .hbm, ⟨41, _⟩ => ⟨S1370000, .i32⟩
  | .hbm, ⟨42, _⟩ => ⟨S1370000, .i32⟩
  | .hbm, ⟨43, _⟩ => ⟨S1370000, .i32⟩
  | .hbm, ⟨44, _⟩ => ⟨S1370000x1, .i32⟩
  | .hbm, ⟨45, _⟩ => ⟨S1370000, .f32⟩
  | .hbm, ⟨46, _⟩ => ⟨S1370000, .f32⟩
  | .hbm, ⟨47, _⟩ => ⟨S_, .i32⟩
  | .hbm, ⟨48, _⟩ => ⟨S1370000, .i32⟩
  | .hbm, ⟨49, _⟩ => ⟨S1370000, .i1⟩
  | .hbm, ⟨50, _⟩ => ⟨S_, .i32⟩
  | .hbm, ⟨51, _⟩ => ⟨S1370000, .i32⟩
  | .hbm, ⟨52, _⟩ => ⟨S1370000, .i32⟩
  | .hbm, ⟨53, _⟩ => ⟨S1370000, .i32⟩
  | .hbm, ⟨54, _⟩ => ⟨S1370000x1, .i32⟩
  | .hbm, ⟨55, _⟩ => ⟨S1370000x128, .f32⟩
  | .hbm, ⟨56, _⟩ => ⟨S1370000x1, .f32⟩
  | .hbm, ⟨57, _⟩ => ⟨S1370000x128, .f32⟩
  | .hbm, ⟨58, _⟩ => ⟨S1370000x128, .f32⟩
  | .hbm, ⟨59, _⟩ => ⟨S_, .f32⟩
  | .hbm, ⟨60, _⟩ => ⟨S170000x128, .f32⟩
  | .hbm, ⟨61, _⟩ => ⟨S1370000x1, .i32⟩
  | .hbm, ⟨62, _⟩ => ⟨S170000x128, .f32⟩
  | .hbm, ⟨63, _⟩ => ⟨S1x128, .f32⟩
  | .hbm, ⟨64, _⟩ => ⟨S170000x128, .f32⟩
  | .hbm, ⟨65, _⟩ => ⟨S170000x128, .f32⟩
  | .hbm, ⟨66, _⟩ => ⟨S_, .f32⟩
  | .hbm, ⟨67, _⟩ => ⟨S170000x128, .f32⟩
  | .hbm, ⟨68, _⟩ => ⟨S170000x128, .f32⟩
  | .hbm, ⟨69, _⟩ => ⟨S170000x40, .f32⟩
  | .hbm, ⟨70, _⟩ => ⟨S_, .f32⟩
  | .hbm, ⟨71, _⟩ => ⟨S1370000, .f32⟩
  | .hbm, ⟨72, _⟩ => ⟨S_, .f32⟩
  | .hbm, ⟨73, _⟩ => ⟨S170000, .f32⟩
  | .hbm, ⟨74, _⟩ => ⟨S1370000x1, .i32⟩
  | .hbm, ⟨75, _⟩ => ⟨S170000, .f32⟩
  | .hbm, ⟨76, _⟩ => ⟨S_, .f32⟩
  | .hbm, ⟨77, _⟩ => ⟨S170000, .f32⟩
  | .hbm, ⟨78, _⟩ => ⟨S170000, .i1⟩
  | .hbm, ⟨79, _⟩ => ⟨S170000, .f32⟩
  | .hbm, ⟨80, _⟩ => ⟨S_, .f32⟩
  | .hbm, ⟨81, _⟩ => ⟨S_, .f32⟩
  | .hbm, ⟨82, _⟩ => ⟨S170000, .f32⟩
  | .hbm, ⟨83, _⟩ => ⟨S170000, .f32⟩
  | .hbm, ⟨84, _⟩ => ⟨S_, .i32⟩
  | .hbm, ⟨85, _⟩ => ⟨S1370000, .i32⟩
  | .hbm, ⟨86, _⟩ => ⟨S1370000, .i1⟩
  | .hbm, ⟨87, _⟩ => ⟨S_, .i32⟩
  | .hbm, ⟨88, _⟩ => ⟨S1370000, .i32⟩
  | .hbm, ⟨89, _⟩ => ⟨S1370000, .i32⟩
  | .hbm, ⟨90, _⟩ => ⟨S1370000, .i32⟩
  | .hbm, ⟨91, _⟩ => ⟨S1370000x1, .i32⟩
  | .hbm, ⟨92, _⟩ => ⟨S1370000, .f32⟩
  | .hbm, ⟨93, _⟩ => ⟨S_, .i32⟩
  | .hbm, ⟨94, _⟩ => ⟨S1370000, .i32⟩
  | .hbm, ⟨95, _⟩ => ⟨S1370000, .i1⟩
  | .hbm, ⟨96, _⟩ => ⟨S_, .i32⟩
  | .hbm, ⟨97, _⟩ => ⟨S1370000, .i32⟩
  | .hbm, ⟨98, _⟩ => ⟨S1370000, .i32⟩
  | .hbm, ⟨99, _⟩ => ⟨S1370000, .i32⟩
  | .hbm, ⟨100, _⟩ => ⟨S1370000x1, .i32⟩
  | .hbm, ⟨101, _⟩ => ⟨S1370000, .f32⟩
  | .hbm, ⟨102, _⟩ => ⟨S1370000, .f32⟩
  | .hbm, ⟨103, _⟩ => ⟨S_, .i32⟩
  | .hbm, ⟨104, _⟩ => ⟨S1370000, .i32⟩
  | .hbm, ⟨105, _⟩ => ⟨S1370000, .i1⟩
  | .hbm, ⟨106, _⟩ => ⟨S_, .i32⟩
  | .hbm, ⟨107, _⟩ => ⟨S1370000, .i32⟩
  | .hbm, ⟨108, _⟩ => ⟨S1370000, .i32⟩
  | .hbm, ⟨109, _⟩ => ⟨S1370000, .i32⟩
  | .hbm, ⟨110, _⟩ => ⟨S1370000x1, .i32⟩
  | .hbm, ⟨111, _⟩ => ⟨S1370000x40, .f32⟩
  | .hbm, ⟨112, _⟩ => ⟨S1370000x1, .f32⟩
  | .hbm, ⟨113, _⟩ => ⟨S1370000x40, .f32⟩
  | .hbm, ⟨114, _⟩ => ⟨S1370000x40, .f32⟩
  | .hbm, ⟨115, _⟩ => ⟨S_, .f32⟩
  | .hbm, ⟨116, _⟩ => ⟨S170000x40, .f32⟩
  | .hbm, ⟨117, _⟩ => ⟨S1370000x1, .i32⟩
  | .hbm, ⟨118, _⟩ => ⟨S170000x40, .f32⟩
  | .hbm, ⟨119, _⟩ => ⟨S1x40, .f32⟩
  | .hbm, ⟨120, _⟩ => ⟨S170000x40, .f32⟩
  | .hbm, ⟨121, _⟩ => ⟨S170000x40, .f32⟩
  | _, _ => ⟨S170000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S170000_S1370000_d0 : Shape.Concatenates [S1200000, S170000] S1370000 0
  slices_S2x1200000_S1x1200000_1_0 : S2x1200000.Slices ![1, 0] S1x1200000
  bcast_S_S1370000 : S_.BroadcastsInDim S1370000 (![] : Fin 0 → Fin S1370000.rank)
  bcast_S_S170000 : S_.BroadcastsInDim S170000 (![] : Fin 0 → Fin S170000.rank)
  bcast_S1370000_S1370000x1_0 : S1370000.BroadcastsInDim S1370000x1 (![0] : Fin 1 → Fin S1370000x1.rank)
  bcast_S1370000x1_S1370000x128_0_1 : S1370000x1.BroadcastsInDim S1370000x128 (![0, 1] : Fin 2 → Fin S1370000x128.rank)
  bcast_S_S170000x128 : S_.BroadcastsInDim S170000x128 (![] : Fin 0 → Fin S170000x128.rank)
  bcast_S128_S1x128_1 : S128.BroadcastsInDim S1x128 (![1] : Fin 1 → Fin S1x128.rank)
  bcast_S1x128_S170000x128_0_1 : S1x128.BroadcastsInDim S170000x128 (![0, 1] : Fin 2 → Fin S170000x128.rank)
  bcast_S1370000x1_S1370000x40_0_1 : S1370000x1.BroadcastsInDim S1370000x40 (![0, 1] : Fin 2 → Fin S1370000x40.rank)
  bcast_S_S170000x40 : S_.BroadcastsInDim S170000x40 (![] : Fin 0 → Fin S170000x40.rank)
  bcast_S40_S1x40_1 : S40.BroadcastsInDim S1x40 (![1] : Fin 1 → Fin S1x40.rank)
  bcast_S1x40_S170000x40_0_1 : S1x40.BroadcastsInDim S170000x40 (![0, 1] : Fin 2 → Fin S170000x40.rank)
  dot_S170000x128_S128x128_S170000x128_1_0_0_1_n_n_wf : DotDims.WF S170000x128 S128x128 S170000x128 [1] [0] [0] [1] [] []
  scatter_S170000_S1370000x1_S1370000_n_0_0_1_wf : ScatterDims.WF S170000 S1370000x1 S1370000 [] [0] [0] 1
  gather_S170000_S1370000x1_S1370000_n_0_n_n_0_1_1_wf : GatherDims.WF S170000 S1370000x1 S1370000 [] [0] [] [0] [] 1 ![1]
  gather_S170000x128_S1370000x1_S1370000x128_1_0_n_n_0_1_1128_wf : GatherDims.WF S170000x128 S1370000x1 S1370000x128 [1] [0] [] [0] [] 1 ![1, 128]
  scatter_S170000x128_S1370000x1_S1370000x128_1_0_0_1_wf : ScatterDims.WF S170000x128 S1370000x1 S1370000x128 [1] [0] [0] 1
  dot_S170000x128_S128x40_S170000x40_1_0_0_1_n_n_wf : DotDims.WF S170000x128 S128x40 S170000x40 [1] [0] [0] [1] [] []
  gather_S170000x40_S1370000x1_S1370000x40_1_0_n_n_0_1_140_wf : GatherDims.WF S170000x40 S1370000x1 S1370000x40 [1] [0] [] [0] [] 1 ![1, 40]
  scatter_S170000x40_S1370000x1_S1370000x40_1_0_0_1_wf : ScatterDims.WF S170000x40 S1370000x1 S1370000x40 [1] [0] [0] 1

variable [Facts₀]

def dot_S170000x128_S128x128_S170000x128_1_0_0_1_n_n : DotDims S170000x128 S128x128 S170000x128 where
  lhsContracting := [1]
  rhsContracting := [0]
  lhsNonContracting := [0]
  rhsNonContracting := [1]
  lhsBatch := []
  rhsBatch := []
  wf := dot_S170000x128_S128x128_S170000x128_1_0_0_1_n_n_wf
def scatter_S170000_S1370000x1_S1370000_n_0_0_1 : ScatterDims S170000 S1370000x1 S1370000 where
  updateWindowDims := []
  insertedWindowDims := [0]
  scatterDimsToOperandDims := [0]
  indexVectorDim := 1
  wf := scatter_S170000_S1370000x1_S1370000_n_0_0_1_wf
def gather_S170000_S1370000x1_S1370000_n_0_n_n_0_1_1 : GatherDims S170000 S1370000x1 S1370000 where
  offsetDims := []
  collapsedSliceDims := [0]
  operandBatchingDims := []
  startIndicesBatchingDims := []
  startIndexMap := [0]
  indexVectorDim := 1
  sliceSizes := ![1]
  wf := gather_S170000_S1370000x1_S1370000_n_0_n_n_0_1_1_wf
def gather_S170000x128_S1370000x1_S1370000x128_1_0_n_n_0_1_1128 : GatherDims S170000x128 S1370000x1 S1370000x128 where
  offsetDims := [1]
  collapsedSliceDims := [0]
  operandBatchingDims := []
  startIndicesBatchingDims := []
  startIndexMap := [0]
  indexVectorDim := 1
  sliceSizes := ![1, 128]
  wf := gather_S170000x128_S1370000x1_S1370000x128_1_0_n_n_0_1_1128_wf
def scatter_S170000x128_S1370000x1_S1370000x128_1_0_0_1 : ScatterDims S170000x128 S1370000x1 S1370000x128 where
  updateWindowDims := [1]
  insertedWindowDims := [0]
  scatterDimsToOperandDims := [0]
  indexVectorDim := 1
  wf := scatter_S170000x128_S1370000x1_S1370000x128_1_0_0_1_wf
def dot_S170000x128_S128x40_S170000x40_1_0_0_1_n_n : DotDims S170000x128 S128x40 S170000x40 where
  lhsContracting := [1]
  rhsContracting := [0]
  lhsNonContracting := [0]
  rhsNonContracting := [1]
  lhsBatch := []
  rhsBatch := []
  wf := dot_S170000x128_S128x40_S170000x40_1_0_0_1_n_n_wf
def gather_S170000x40_S1370000x1_S1370000x40_1_0_n_n_0_1_140 : GatherDims S170000x40 S1370000x1 S1370000x40 where
  offsetDims := [1]
  collapsedSliceDims := [0]
  operandBatchingDims := []
  startIndicesBatchingDims := []
  startIndexMap := [0]
  indexVectorDim := 1
  sliceSizes := ![1, 40]
  wf := gather_S170000x40_S1370000x1_S1370000x40_1_0_n_n_0_1_140_wf
def scatter_S170000x40_S1370000x1_S1370000x40_1_0_0_1 : ScatterDims S170000x40 S1370000x1 S1370000x40 where
  updateWindowDims := [1]
  insertedWindowDims := [0]
  scatterDimsToOperandDims := [0]
  indexVectorDim := 1
  wf := scatter_S170000x40_S1370000x1_S1370000x40_1_0_0_1_wf

class Facts : Prop extends Facts₀ where

variable [Facts]
-- ==== Proof.KernelRun.lean ====
/-
  The idealized kernel's run with its RESULT array named. The program is four pipelined regions among stretches of host
  operations; its frame run leaves every unscoped buffer of a core at the last boundary's contents, and the frame claim
  keeps of that only the six argument arrays. Here the same run is read at one more buffer: the result array
  `main_v61` (the second bias-add's output, f32[170000, 40]) ends at the last boundary's contents of that buffer,
  and the arguments end as launched. What those contents are, as a function of the arguments, is the business of the
  modules that import this one.
-/
import proofs.«102843_j84138409329232_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result array at the last boundary's
    contents of its buffer and the six argument arrays as launched. -/
theorem run_main : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.LibMatmulIdx.lean ====
/-
  A TensorCore product of two matrices into a zero accumulator at exact arithmetic, read at an entry: the sum over
  the contracted axis of the products of the left factor's row entries with the right factor's column entries.
  Stated, as the host product's lemma is, for any contraction record between two-axis shapes whose operand indices
  are "row of the result, contracted position" and "contracted position, column of the result".
-/
import Idealize.ShloMosaic.Lib.ValueIdx
import Idealize.ShloMosaic.PureOps.Ideal.Laws

noncomputable section

namespace LibMatmulIdx

open Idealize.ShloMosaic Idealize.ShloMosaic.ValueIdx

/-- `tpu.matmul` of an M×K by a K×N matrix into the zero splat, at entry `j`: Σ_k l[j₀,k] · r[k,j₁]. -/
theorem matmul2_apply {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (l : FVec Ideal ⟨2, ![M, K]⟩ φ₁) (r : FVec Ideal ⟨2, ![K, N]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := K) (n1 := N) k (j 1)) := by
  rw [Ideal.matmul_constant_zero_apply, ← Equiv.sum_comp (contrEquiv1 D K hr hs).symm]
  refine Finset.sum_congr rfl fun k _ => ?_
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := K) (n1 := N) k (j 1) := funext fun a => Fin.ext (by
    match a with
    | ⟨0, _⟩ => exact (hr0 _ _).trans hk
    | ⟨1, _⟩ => exact hr1 _ _)
  rw [e1, e2]

end LibMatmulIdx

end
-- ==== Proof.LibRowOps.lean ====
/-
  A vector used as a row, read at an index.

  A vector of length b cast into the [1, b] row reads, at (z, q), the vector at q: (z, q) with z = 0 and q have the
  same row-major position. A [1, b] row broadcast to [a, b] reads, at (p, q), the row at q.
-/
import Idealize.ShloMosaic.Lib.ValueIdx
import Idealize.ShloMosaic.Lib.Pipeline.Value

noncomputable section

namespace LibRowOps

open Idealize.ShloMosaic Idealize.ShloMosaic.ValueIdx

/-- A vector of length b cast into the [1, b] row, read at (z, q): the vector at q. -/
theorem shapeCast_row_apply {α : Type} {b : ℕ} (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- A [1, b] row broadcast to [a, b] reads, at (p, q), the row at q. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

end LibRowOps

end
-- ==== Proof.Payload.lean ====
/-
  What each of the four kernel bodies stores, read at an entry of its block, at exact arithmetic.

  The two matrix-product bodies round both operands to bf16 (the identity on exact values) and multiply into a zero
  accumulator: entry (p, q) of the stored block is Σ_k x(p, k) · w(k, q), k over the 128 contracted positions.
  The two bias bodies add a [1, b] row to every row of the block; the first also takes the maximum with zero:
  entry (p, q) is max(x(p, q) + b(0, q), 0), respectively x(p, q) + b(0, q).
-/
import proofs.«102843_j84138409329232_1_alg».proof.Proof.Gen.KernelIdeal.Skeleton
import proofs.«102843_j84138409329232_1_alg».proof.Proof.LibMatmulIdx
import proofs.«102843_j84138409329232_1_alg».proof.Proof.LibRowOps
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx

/-! ## The two contraction records: which operand entries meet at an output entry -/

theorem dA_l0 (j) (q : dot_S6800x128_S128x128_S6800x128_1_0_0_1_n_n.contr.Idx) : (dot_S6800x128_S128x128_S6800x128_1_0_0_1_n_n.lhsIdx j q 0).val = (j 0).val := by
  unfold DotDims.lhsIdx
  rw [dif_neg (show ¬(0 : Fin S6800x128.rank) ∈ dot_S6800x128_S128x128_S6800x128_1_0_0_1_n_n.lhsBatch by decide), dif_pos (show (0 : Fin S6800x128.rank) ∈ dot_S6800x128_S128x128_S6800x128_1_0_0_1_n_n.lhsNonContracting by decide)]
  rfl
theorem dA_l1 (j) (q : dot_S6800x128_S128x128_S6800x128_1_0_0_1_n_n.contr.Idx) : (dot_S6800x128_S128x128_S6800x128_1_0_0_1_n_n.lhsIdx j q 1).val = (q ⟨0, by decide⟩).val :=
  dot_S6800x128_S128x128_S6800x128_1_0_0_1_n_n.lhsIdx_val_of_single rfl j q
theorem dA_r0 (j) (q : dot_S6800x128_S128x128_S6800x128_1_0_0_1_n_n.contr.Idx) : (dot_S6800x128_S128x128_S6800x128_1_0_0_1_n_n.rhsIdx j q 0).val = (q ⟨0, by decide⟩).val :=
  dot_S6800x128_S128x128_S6800x128_1_0_0_1_n_n.rhsIdx_val_of_single rfl j q
theorem dA_r1 (j) (q : dot_S6800x128_S128x128_S6800x128_1_0_0_1_n_n.contr.Idx) : (dot_S6800x128_S128x128_S6800x128_1_0_0_1_n_n.rhsIdx j q 1).val = (j 1).val := by
  unfold DotDims.rhsIdx
  rw [dif_neg (show ¬(1 : Fin S128x128.rank) ∈ dot_S6800x128_S128x128_S6800x128_1_0_0_1_n_n.rhsBatch by decide), dif_pos (show (1 : Fin S128x128.rank) ∈ dot_S6800x128_S128x128_S6800x128_1_0_0_1_n_n.rhsNonContracting by decide)]
  rfl

theorem dB_l0 (j) (q : dot_S6800x128_S128x40_S6800x40_1_0_0_1_n_n.contr.Idx) : (dot_S6800x128_S128x40_S6800x40_1_0_0_1_n_n.lhsIdx j q 0).val = (j 0).val := by
  unfold DotDims.lhsIdx
  rw [dif_neg (show ¬(0 : Fin S6800x128.rank) ∈ dot_S6800x128_S128x40_S6800x40_1_0_0_1_n_n.lhsBatch by decide), dif_pos (show (0 : Fin S6800x128.rank) ∈ dot_S6800x128_S128x40_S6800x40_1_0_0_1_n_n.lhsNonContracting by decide)]
  rfl
theorem dB_l1 (j) (q : dot_S6800x128_S128x40_S6800x40_1_0_0_1_n_n.contr.Idx) : (dot_S6800x128_S128x40_S6800x40_1_0_0_1_n_n.lhsIdx j q 1).val = (q ⟨0, by decide⟩).val :=
  dot_S6800x128_S128x40_S6800x40_1_0_0_1_n_n.lhsIdx_val_of_single rfl j q
theorem dB_r0 (j) (q : dot_S6800x128_S128x40_S6800x40_1_0_0_1_n_n.contr.Idx) : (dot_S6800x128_S128x40_S6800x40_1_0_0_1_n_n.rhsIdx j q 0).val = (q ⟨0, by decide⟩).val :=
  dot_S6800x128_S128x40_S6800x40_1_0_0_1_n_n.rhsIdx_val_of_single rfl j q
theorem dB_r1 (j) (q : dot_S6800x128_S128x40_S6800x40_1_0_0_1_n_n.contr.Idx) : (dot_S6800x128_S128x40_S6800x40_1_0_0_1_n_n.rhsIdx j q 1).val = (j 1).val := by
  unfold DotDims.rhsIdx
  rw [dif_neg (show ¬(1 : Fin S128x40.rank) ∈ dot_S6800x128_S128x40_S6800x40_1_0_0_1_n_n.rhsBatch by decide), dif_pos (show (1 : Fin S128x40.rank) ∈ dot_S6800x128_S128x40_S6800x40_1_0_0_1_n_n.rhsNonContracting by decide)]
  rfl

/-! ## The stored blocks at an entry -/

/-- The first product's block: Σ_k x(p, k) · w(k, q). -/
theorem pay0_apply (x : Vec Ideal S6800x128 .f32) (w : Vec Ideal S128x128 .f32) (p : Fin 6800) (q : Fin 128) :
    k0_pay1 (F := Ideal) x w (ix2 p q) = ∑ k : Fin 128, x (ix2 p k) * w (ix2 k q) :=
  LibMatmulIdx.matmul2_apply dot_S6800x128_S128x128_S6800x128_1_0_0_1_n_n rfl rfl dA_l0 dA_l1 dA_r0 dA_r1 none
    (truncf .bf16 x bitsLt_bf16_f32) (truncf .bf16 w bitsLt_bf16_f32) (ix2 p q)

/-- The second product's block: Σ_k x(p, k) · w(k, q), into 40 columns. -/
theorem pay2_apply (x : Vec Ideal S6800x128 .f32) (w : Vec Ideal S128x40 .f32) (p : Fin 6800) (q : Fin 40) :
    k2_pay1 (F := Ideal) x w (ix2 p q) = ∑ k : Fin 128, x (ix2 p k) * w (ix2 k q) := by
  unfold k2_pay1
  rw [shapeCast_self]
  exact LibMatmulIdx.matmul2_apply dot_S6800x128_S128x40_S6800x40_1_0_0_1_n_n rfl rfl dB_l0 dB_l1 dB_r0 dB_r1 none
    (truncf .bf16 x bitsLt_bf16_f32) (truncf .bf16 w bitsLt_bf16_f32) (ix2 p q)

/-- The first bias body's block: max(x(p, q) + b(0, q), 0). -/
theorem pay1_apply (x : Vec Ideal S6800x128 .f32) (b : Vec Ideal S1x128 .f32) (p : Fin 6800) (q : Fin 128) :
    k1_pay1 (F := Ideal) x b (ix2 p q) = max (x (ix2 p q) + b (ix2 (0 : Fin 1) q)) 0 := by
  unfold k1_pay1
  rw [maximumf_apply, addf_apply, shapeCast_self, shapeCast_self, LibRowOps.broadcastTo_row_apply, broadcast_apply]
  show max _ (Ideal.ofBits .f32 0x00000000#32) = _
  rw [Ideal.ofBits_zero_f32]

/-- The second bias body's block: x(p, q) + b(0, q). -/
theorem pay3_apply (x : Vec Ideal S6800x40 .f32) (b : Vec Ideal S1x40 .f32) (p : Fin 6800) (q : Fin 40) :
    k3_pay1 (F := Ideal) x b (ix2 p q) = x (ix2 p q) + b (ix2 (0 : Fin 1) q) := by
  unfold k3_pay1
  rw [addf_apply, shapeCast_self, shapeCast_self, LibRowOps.broadcastTo_row_apply]

end Cert.KernelIdeal.Blocks

end
-- ==== Proof.Spec.lean ====
/-
  The three entry-wise functions the kernel's four pipelined regions compute, over extended reals.

  `matProd x w` is the product of an [M, K] by a [K, N] matrix: entry (r, q) is Σ_k x(r, k) · w(k, q).
  `addRow a b` adds the [1, N] row b to every row of a; `addRowRelu a b` then takes the maximum with zero.
  No finiteness is asked anywhere: these are the same sums, sums and maxima on both sides of the certificate, so no law
  of the extended reals beyond reflexivity is used on them.
-/
import Idealize.ShloMosaic.Lib.ValueIdx
import Idealize.ShloMosaic.PureOps.Ideal

noncomputable section

namespace Cert.GcnSpec

open Idealize.ShloMosaic Idealize.ShloMosaic.ValueIdx

/-- Entry (r, q) of the product: Σ_k x(r, k) · w(k, q). -/
def matProd {M K N : ℕ} (x : (⟨2, ![M, K]⟩ : Shape).Idx → EReal) (w : (⟨2, ![K, N]⟩ : Shape).Idx → EReal) :
    (⟨2, ![M, N]⟩ : Shape).Idx → EReal :=
  fun i => ∑ k : Fin K, x (ix2 (n0 := M) (n1 := K) (i 0) k) * w (ix2 (n0 := K) (n1 := N) k (i 1))

/-- Entry (r, q) of a matrix plus a row: a(r, q) + b(0, q). -/
def addRow {M N : ℕ} (a : (⟨2, ![M, N]⟩ : Shape).Idx → EReal) (b : (⟨2, ![1, N]⟩ : Shape).Idx → EReal) :
    (⟨2, ![M, N]⟩ : Shape).Idx → EReal :=
  fun i => a i + b (ix2 (n0 := 1) (n1 := N) (0 : Fin 1) (i 1))

/-- Entry (r, q) of a matrix plus a row, cut below at zero: max(a(r, q) + b(0, q), 0). -/
def addRowRelu {M N : ℕ} (a : (⟨2, ![M, N]⟩ : Shape).Idx → EReal) (b : (⟨2, ![1, N]⟩ : Shape).Idx → EReal) :
    (⟨2, ![M, N]⟩ : Shape).Idx → EReal :=
  fun i => max (a i + b (ix2 (n0 := 1) (n1 := N) (0 : Fin 1) (i 1))) 0

end Cert.GcnSpec

end
-- ==== Proof.Region0.lean ====
/-
  Region 0 is a matrix product tiled over 25 row blocks of 6800 rows: at grid point t the body reads rows
  6800·t … 6800·t + 6799 of the left factor and the whole right factor, and writes the same rows of the result. So the
  result array ends at the product of the two arrays as the region finds them, entry by entry: entry (r, q) lies in
  block r / 6800, whose body computed Σ_k x(r, k) · w(k, q).
-/
import proofs.«102843_j84138409329232_1_alg».proof.Proof.Gen.KernelIdeal.Frame
import proofs.«102843_j84138409329232_1_alg».proof.Proof.Payload
import proofs.«102843_j84138409329232_1_alg».proof.Proof.Spec
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the 25 grid points: the tiled operand and the result are at row block t, column
    block 0; the other operand is always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The tiled operand's block at point t holds rows 6800·t … of the array as the region finds it. -/
theorem iblk_0_apply (c : Dev nD) (t : Fin cfg0.N) (p : Fin 6800) (k : Fin 128) (i : S170000x128.Idx)
    (h0 : (i 0).val = 6800 * t.val + p.val) (h1 : (i 1).val = k.val) :
    (iblk0 V c 0 t : Vec Ideal S6800x128 .f32) (ix2 p k) = (V c main_arg0 : S170000x128.Idx → EReal) i := by
  obtain ⟨e0, e1, _, _, _, _⟩ := idx_facts t
  unfold iblk0
  rw [View.read_apply]
  show V c main_arg0 _ = V c main_arg0 _
  refine congrArg _ (funext fun a => Fin.ext ?_)
  match a with
  | ⟨0, _⟩ => show win0_0.index t 0 * 6800 + 1 * p.val = (i 0).val; rw [e0, h0]; omega
  | ⟨1, _⟩ => show win0_0.index t 1 * 128 + 1 * k.val = (i 1).val; rw [e1, h1]; omega

/-- The right factor's block at every point is the whole array. -/
theorem iblk_1_apply (c : Dev nD) (t : Fin cfg0.N) (k : Fin 128) (q : Fin 128) :
    (iblk0 V c 1 t : Vec Ideal S128x128 .f32) (ix2 k q) = (V c main_arg1 : S128x128.Idx → EReal) (ix2 k q) := by
  obtain ⟨_, _, e2, e3, _, _⟩ := idx_facts t
  unfold iblk0
  rw [View.read_apply]
  show V c main_arg1 _ = V c main_arg1 _
  refine congrArg _ (funext fun a => Fin.ext ?_)
  match a with
  | ⟨0, _⟩ => show win0_1.index t 0 * 128 + 1 * k.val = k.val; rw [e2]; omega
  | ⟨1, _⟩ => show win0_1.index t 1 * 128 + 1 * q.val = q.val; rw [e3]; omega

/-- What point t writes back is block t of the entry-wise function of the two arrays. -/
theorem flushed_eq (c : Dev nD) (t : Fin cfg0.N) :
    (dat0 V c).flushed 2 t = ((cfg0.win 2).blk t).view.read (Elt Ideal)
      (Cert.GcnSpec.matProd (V c main_arg0 : S170000x128.Idx → EReal) (V c main_arg1 : S128x128.Idx → EReal)) := by
  show (cfg0.win 2).cut (grid0.coords t) ((dat0 V c).after 2 t) = _
  rw [after0_2]
  unfold out0_2
  rw [View.canon_unit_zero hz]
  simp only [View.ld_unit_zero (S := S6800x128) hz, View.ld_unit_zero (S := S128x128) hz]
  obtain ⟨e0, e1, e2, e3, e4, e5⟩ := idx_facts t
  refine funext fun (j : S6800x128.Idx) => ?_
  show k0_pay1 (iblk0 V c 0 t) (iblk0 V c 1 t) j
    = Cert.GcnSpec.matProd (V c main_arg0 : S170000x128.Idx → EReal) (V c main_arg1 : S128x128.Idx → EReal) (((cfg0.win 2).blk t).view.emb j)
  obtain ⟨p, q, rfl⟩ : ∃ (p : Fin 6800) (q : Fin 128), j = ix2 p q := ⟨j 0, j 1, eq_ix2 j⟩
  refine (Blocks.pay0_apply (iblk0 V c 0 t) (iblk0 V c 1 t) p q).trans ?_
  unfold Cert.GcnSpec.matProd
  refine Finset.sum_congr rfl fun k _ => ?_
  rw [iblk_0_apply V c t p k (ix2 ((((cfg0.win 2).blk t).view.emb (ix2 p q)) 0) k) (by show win0_2.index t 0 * 6800 + 1 * p.val = _; rw [e4]; omega) rfl,
    iblk_1_apply V c t k q]
  have hq : (ix2 (n0 := 128) (n1 := 128) k q) = ix2 (n0 := 128) (n1 := 128) k ((((cfg0.win 2).blk t).view.emb (ix2 p q)) 1) :=
    congrArg (ix2 (n0 := 128) (n1 := 128) k) (Fin.ext (by show q.val = win0_2.index t 1 * 128 + 1 * q.val; rw [e5]; omega))
  rw [hq]

/-- An index of the result is in point t's block iff each coordinate is in the block's range on its axis. -/
theorem mem_blk (t : Fin cfg0.N) (i : S170000x128.Idx) :
    i ∈ ((cfg0.win 2).blk t).view.set ↔ ∀ a : Fin 2, win0_2.index t a * S6800x128.size a ≤ (i a).val
      ∧ (i a).val < win0_2.index t a * S6800x128.size a + S6800x128.size a := by
  show i ∈ ((View.whole main_v30).slice (win0_2.rect t)).set ↔ _
  rw [View.set_slice_whole, Rect.mem_set_unit]
  exact Iff.rfl

/-- Every entry of the result is in some point's block: row r is in block r / 6800. -/
theorem cover (i : S170000x128.Idx) :
    ∃ t : Fin cfg0.N, (cfg0.win 2).flush t = true ∧ i ∈ ((cfg0.win 2).blk t).view.set := by
  have hi0 : (i 0).val < 170000 := (i 0).isLt
  have hi1 : (i 1).val < 128 := (i 1).isLt
  obtain ⟨t, ht⟩ : ∃ t : Fin cfg0.N, t.val = (i 0).val / 6800 :=
    ⟨⟨(i 0).val / 6800, by have hN : grid0.N = 25 := N_0; show (i 0).val / 6800 < grid0.N; omega⟩, rfl⟩
  obtain ⟨_, _, _, _, e4, e5⟩ := idx_facts t
  refine ⟨t, flush0_2 t, ?_⟩
  rw [mem_blk]
  intro a
  match a with
  | ⟨0, _⟩ => show win0_2.index t 0 * 6800 ≤ (i 0).val ∧ (i 0).val < win0_2.index t 0 * 6800 + 6800; rw [e4, ht]; omega
  | ⟨1, _⟩ => show win0_2.index t 1 * 128 ≤ (i 1).val ∧ (i 1).val < win0_2.index t 1 * 128 + 128; rw [e5]; omega

/-- The result array after the region: the entry-wise function of the two arrays as the region finds them. -/
theorem final (c : Dev nD) : (dat0 V c).arrAt 2 cfg0.N
    = Cert.GcnSpec.matProd (V c main_arg0 : S170000x128.Idx → EReal) (V c main_arg1 : S128x128.Idx → EReal) :=
  (dat0 V c).arrAt_eq_of_cover 2 _ (fun t _ => flushed_eq V c t) cover

end Cert.KernelIdeal.Reg0

end
-- ==== Proof.Region1.lean ====
/-
  Region 1 adds a [1, 128] row to a matrix and cuts the sum below at zero, tiled over 25 row blocks of 6800 rows: at grid point t the body reads rows
  6800·t … 6800·t + 6799 of the matrix and the whole row, and writes the same rows of the result. So the result array
  ends at the entry-wise function of the two arrays as the region finds them: entry (r, q) lies in block r / 6800.
-/
import proofs.«102843_j84138409329232_1_alg».proof.Proof.Gen.KernelIdeal.Frame
import proofs.«102843_j84138409329232_1_alg».proof.Proof.Payload
import proofs.«102843_j84138409329232_1_alg».proof.Proof.Spec
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the 25 grid points: the tiled operand and the result are at row block t, column
    block 0; the other operand is always at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The tiled operand's block at point t holds rows 6800·t … of the array as the region finds it. -/
theorem iblk_0_apply (c : Dev nD) (t : Fin cfg1.N) (p : Fin 6800) (k : Fin 128) (i : S170000x128.Idx)
    (h0 : (i 0).val = 6800 * t.val + p.val) (h1 : (i 1).val = k.val) :
    (iblk1 V c 0 t : Vec Ideal S6800x128 .f32) (ix2 p k) = (V c main_v43 : S170000x128.Idx → EReal) i := by
  obtain ⟨e0, e1, _, _, _, _⟩ := idx_facts t
  unfold iblk1
  rw [View.read_apply]
  show V c main_v43 _ = V c main_v43 _
  refine congrArg _ (funext fun a => Fin.ext ?_)
  match a with
  | ⟨0, _⟩ => show win1_0.index t 0 * 6800 + 1 * p.val = (i 0).val; rw [e0, h0]; omega
  | ⟨1, _⟩ => show win1_0.index t 1 * 128 + 1 * k.val = (i 1).val; rw [e1, h1]; omega

/-- The row's block at every point is the whole row. -/
theorem iblk_1_apply (c : Dev nD) (t : Fin cfg1.N) (z : Fin 1) (q : Fin 128) :
    (iblk1 V c 1 t : Vec Ideal S1x128 .f32) (ix2 z q) = (V c main_v44 : S1x128.Idx → EReal) (ix2 z q) := by
  obtain ⟨_, _, e2, e3, _, _⟩ := idx_facts t
  unfold iblk1
  rw [View.read_apply]
  show V c main_v44 _ = V c main_v44 _
  refine congrArg _ (funext fun a => Fin.ext ?_)
  match a with
  | ⟨0, _⟩ => show win1_1.index t 0 * 1 + 1 * z.val = z.val; rw [e2]; omega
  | ⟨1, _⟩ => show win1_1.index t 1 * 128 + 1 * q.val = q.val; rw [e3]; omega

/-- What point t writes back is block t of the entry-wise function of the two arrays. -/
theorem flushed_eq (c : Dev nD) (t : Fin cfg1.N) :
    (dat1 V c).flushed 2 t = ((cfg1.win 2).blk t).view.read (Elt Ideal)
      (Cert.GcnSpec.addRowRelu (V c main_v43 : S170000x128.Idx → EReal) (V c main_v44 : S1x128.Idx → EReal)) := by
  show (cfg1.win 2).cut (grid1.coords t) ((dat1 V c).after 2 t) = _
  rw [after1_2]
  unfold out1_2
  rw [View.canon_unit_zero hz]
  simp only [View.ld_unit_zero (S := S6800x128) hz, View.ld_unit_zero (S := S1x128) hz]
  obtain ⟨e0, e1, e2, e3, e4, e5⟩ := idx_facts t
  refine funext fun (j : S6800x128.Idx) => ?_
  show k1_pay1 (iblk1 V c 0 t) (iblk1 V c 1 t) j
    = Cert.GcnSpec.addRowRelu (V c main_v43 : S170000x128.Idx → EReal) (V c main_v44 : S1x128.Idx → EReal) (((cfg1.win 2).blk t).view.emb j)
  obtain ⟨p, q, rfl⟩ : ∃ (p : Fin 6800) (q : Fin 128), j = ix2 p q := ⟨j 0, j 1, eq_ix2 j⟩
  refine (Blocks.pay1_apply (iblk1 V c 0 t) (iblk1 V c 1 t) p q).trans ?_
  unfold Cert.GcnSpec.addRowRelu
  rw [iblk_0_apply V c t p q (((cfg1.win 2).blk t).view.emb (ix2 p q)) (by show win1_2.index t 0 * 6800 + 1 * p.val = _; rw [e4]; omega) (by show win1_2.index t 1 * 128 + 1 * q.val = _; rw [e5]; omega),
    iblk_1_apply V c t 0 q]
  have hq : (ix2 (n0 := 1) (n1 := 128) (0 : Fin 1) q) = ix2 (n0 := 1) (n1 := 128) (0 : Fin 1) ((((cfg1.win 2).blk t).view.emb (ix2 p q)) 1) :=
    congrArg (ix2 (n0 := 1) (n1 := 128) (0 : Fin 1)) (Fin.ext (by show q.val = win1_2.index t 1 * 128 + 1 * q.val; rw [e5]; omega))
  rw [hq]

/-- An index of the result is in point t's block iff each coordinate is in the block's range on its axis. -/
theorem mem_blk (t : Fin cfg1.N) (i : S170000x128.Idx) :
    i ∈ ((cfg1.win 2).blk t).view.set ↔ ∀ a : Fin 2, win1_2.index t a * S6800x128.size a ≤ (i a).val
      ∧ (i a).val < win1_2.index t a * S6800x128.size a + S6800x128.size a := by
  show i ∈ ((View.whole main_v45).slice (win1_2.rect t)).set ↔ _
  rw [View.set_slice_whole, Rect.mem_set_unit]
  exact Iff.rfl

/-- Every entry of the result is in some point's block: row r is in block r / 6800. -/
theorem cover (i : S170000x128.Idx) :
    ∃ t : Fin cfg1.N, (cfg1.win 2).flush t = true ∧ i ∈ ((cfg1.win 2).blk t).view.set := by
  have hi0 : (i 0).val < 170000 := (i 0).isLt
  have hi1 : (i 1).val < 128 := (i 1).isLt
  obtain ⟨t, ht⟩ : ∃ t : Fin cfg1.N, t.val = (i 0).val / 6800 :=
    ⟨⟨(i 0).val / 6800, by have hN : grid1.N = 25 := N_1; show (i 0).val / 6800 < grid1.N; omega⟩, rfl⟩
  obtain ⟨_, _, _, _, e4, e5⟩ := idx_facts t
  refine ⟨t, flush1_2 t, ?_⟩
  rw [mem_blk]
  intro a
  match a with
  | ⟨0, _⟩ => show win1_2.index t 0 * 6800 ≤ (i 0).val ∧ (i 0).val < win1_2.index t 0 * 6800 + 6800; rw [e4, ht]; omega
  | ⟨1, _⟩ => show win1_2.index t 1 * 128 ≤ (i 1).val ∧ (i 1).val < win1_2.index t 1 * 128 + 128; rw [e5]; omega

/-- The result array after the region: the entry-wise function of the two arrays as the region finds them. -/
theorem final (c : Dev nD) : (dat1 V c).arrAt 2 cfg1.N
    = Cert.GcnSpec.addRowRelu (V c main_v43 : S170000x128.Idx → EReal) (V c main_v44 : S1x128.Idx → EReal) :=
  (dat1 V c).arrAt_eq_of_cover 2 _ (fun t _ => flushed_eq V c t) cover

end Cert.KernelIdeal.Reg1

end
-- ==== Proof.Region2.lean ====
/-
  Region 2 is a matrix product tiled over 25 row blocks of 6800 rows: at grid point t the body reads rows
  6800·t … 6800·t + 6799 of the left factor and the whole right factor, and writes the same rows of the result. So the
  result array ends at the product of the two arrays as the region finds them, entry by entry: entry (r, q) lies in
  block r / 6800, whose body computed Σ_k x(r, k) · w(k, q).
-/
import proofs.«102843_j84138409329232_1_alg».proof.Proof.Gen.KernelIdeal.Frame
import proofs.«102843_j84138409329232_1_alg».proof.Proof.Payload
import proofs.«102843_j84138409329232_1_alg».proof.Proof.Spec
import Idealize.ShloMosaic.Lib.Pipeline.Value
import Idealize.ShloMosaic.Lib.ValueIdx

set_option maxRecDepth 16384

noncomputable section

namespace Cert.KernelIdeal.Reg2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the 25 grid points: the tiled operand and the result are at row block t, column
    block 0; the other operand is always at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The tiled operand's block at point t holds rows 6800·t … of the array as the region finds it. -/
theorem iblk_0_apply (c : Dev nD) (t : Fin cfg2.N) (p : Fin 6800) (k : Fin 128) (i : S170000x128.Idx)
    (h0 : (i 0).val = 6800 * t.val + p.val) (h1 : (i 1).val = k.val) :
    (iblk2 V c 0 t : Vec Ideal S6800x128 .f32) (ix2 p k) = (V c main_v45 : S170000x128.Idx → EReal) i := by
  obtain ⟨e0, e1, _, _, _, _⟩ := idx_facts t
  unfold iblk2
  rw [View.read_apply]
  show V c main_v45 _ = V c main_v45 _
  refine congrArg _ (funext fun a => Fin.ext ?_)
  match a with
  | ⟨0, _⟩ => show win2_0.index t 0 * 6800 + 1 * p.val = (i 0).val; rw [e0, h0]; omega
  | ⟨1, _⟩ => show win2_0.index t 1 * 128 + 1 * k.val = (i 1).val; rw [e1, h1]; omega

/-- The right factor's block at every point is the whole array. -/
theorem iblk_1_apply (c : Dev nD) (t : Fin cfg2.N) (k : Fin 128) (q : Fin 40) :
    (iblk2 V c 1 t : Vec Ideal S128x40 .f32) (ix2 k q) = (V c main_arg3 : S128x40.Idx → EReal) (ix2 k q) := by
  obtain ⟨_, _, e2, e3, _, _⟩ := idx_facts t
  unfold iblk2
  rw [View.read_apply]
  show V c main_arg3 _ = V c main_arg3 _
  refine congrArg _ (funext fun a => Fin.ext ?_)
  match a with
  | ⟨0, _⟩ => show win2_1.index t 0 * 128 + 1 * k.val = k.val; rw [e2]; omega
  | ⟨1, _⟩ => show win2_1.index t 1 * 40 + 1 * q.val = q.val; rw [e3]; omega

/-- What point t writes back is block t of the entry-wise function of the two arrays. -/
theorem flushed_eq (c : Dev nD) (t : Fin cfg2.N) :
    (dat2 V c).flushed 2 t = ((cfg2.win 2).blk t).view.read (Elt Ideal)
      (Cert.GcnSpec.matProd (V c main_v45 : S170000x128.Idx → EReal) (V c main_arg3 : S128x40.Idx → EReal)) := by
  show (cfg2.win 2).cut (grid2.coords t) ((dat2 V c).after 2 t) = _
  rw [after2_2]
  unfold out2_2
  rw [View.canon_unit_zero hz]
  simp only [View.ld_unit_zero (S := S6800x128) hz, View.ld_unit_zero (S := S128x40) hz]
  obtain ⟨e0, e1, e2, e3, e4, e5⟩ := idx_facts t
  refine funext fun (j : S6800x40.Idx) => ?_
  show k2_pay1 (iblk2 V c 0 t) (iblk2 V c 1 t) j
    = Cert.GcnSpec.matProd (V c main_v45 : S170000x128.Idx → EReal) (V c main_arg3 : S128x40.Idx → EReal) (((cfg2.win 2).blk t).view.emb j)
  obtain ⟨p, q, rfl⟩ : ∃ (p : Fin 6800) (q : Fin 40), j = ix2 p q := ⟨j 0, j 1, eq_ix2 j⟩
  refine (Blocks.pay2_apply (iblk2 V c 0 t) (iblk2 V c 1 t) p q).trans ?_
  unfold Cert.GcnSpec.matProd
  refine Finset.sum_congr rfl fun k _ => ?_
  rw [iblk_0_apply V c t p k (ix2 ((((cfg2.win 2).blk t).view.emb (ix2 p q)) 0) k) (by show win2_2.index t 0 * 6800 + 1 * p.val = _; rw [e4]; omega) rfl,
    iblk_1_apply V c t k q]
  have hq : (ix2 (n0 := 128) (n1 := 40) k q) = ix2 (n0 := 128) (n1 := 40) k ((((cfg2.win 2).blk t).view.emb (ix2 p q)) 1) :=
    congrArg (ix2 (n0 := 128) (n1 := 40) k) (Fin.ext (by show q.val = win2_2.index t 1 * 40 + 1 * q.val; rw [e5]; omega))
  rw [hq]

/-- An index of the result is in point t's block iff each coordinate is in the block's range on its axis. -/
theorem mem_blk (t : Fin cfg2.N) (i : S170000x40.Idx) :
    i ∈ ((cfg2.win 2).blk t).view.set ↔ ∀ a : Fin 2, win2_2.index t a * S6800x40.size a ≤ (i a).val
      ∧ (i a).val < win2_2.index t a * S6800x40.size a + S6800x40.size a := by
  show i ∈ ((View.whole main_v46).slice (win2_2.rect t)).set ↔ _
  rw [View.set_slice_whole, Rect.mem_set_unit]
  exact Iff.rfl

/-- Every entry of the result is in some point's block: row r is in block r / 6800. -/
theorem cover (i : S170000x40.Idx) :
    ∃ t : Fin cfg2.N, (cfg2.win 2).flush t = true ∧ i ∈ ((cfg2.win 2).blk t).view.set := by
  have hi0 : (i 0).val < 170000 := (i 0).isLt
  have hi1 : (i 1).val < 40 := (i 1).isLt
  obtain ⟨t, ht⟩ : ∃ t : Fin cfg2.N, t.val = (i 0).val / 6800 :=
    ⟨⟨(i 0).val / 6800, by have hN : grid2.N = 25 := N_2; show (i 0).val / 6800 < grid2.N; omega⟩, rfl⟩
  obtain ⟨_, _, _, _, e4, e5⟩ := idx_facts t
  refine ⟨t, flush2_2 t, ?_⟩
  rw [mem_blk]
  intro a
  match a with
  | ⟨0, _⟩ => show win2_2.index t 0 * 6800 ≤ (i 0).val ∧ (i 0).val < win2_2.index t 0 * 6800 + 6800; rw [e4, ht]; omega
  | ⟨1, _⟩ => show win2_2.index t 1 * 40 ≤ (i 1).val ∧ (i 1).val < win2_2.index t 1 * 40 + 40; rw [e5]; omega

/-- The result array after the region: the entry-wise function of the two arrays as the region finds them. -/
theorem final (c : Dev nD) : (dat2 V c).arrAt 2 cfg2.N
    = Cert.GcnSpec.matProd (V c main_v45 : S170000x128.Idx → EReal) (V c main_arg3 : S128x40.Idx → EReal) :=
  (dat2 V c).arrAt_eq_of_cover 2 _ (fun t _ => flushed_eq V c t) cover

end Cert.KernelIdeal.Reg2

end
-- ==== Proof.Region3.lean ====
/-
  Region 3 adds a [1, 40] row to a matrix, tiled over 25 row blocks of 6800 rows: at grid point t the body reads rows
  6800·t … 6800·t + 6799 of the matrix and the whole row, and writes the same rows of the result. So the result array
  ends at the entry-wise function of the two arrays as the region finds them: entry (r, q) lies in block r / 6800.
-/
import proofs.«102843_j84138409329232_1_alg».proof.Proof.Gen.KernelIdeal.Frame
import proofs.«102843_j84138409329232_1_alg».proof.Proof.Payload
import proofs.«102843_j84138409329232_1_alg».proof.Proof.Spec
import Idealize.ShloMosaic.Lib.Pipeline.Value
import Idealize.ShloMosaic.Lib.ValueIdx

set_option maxRecDepth 16384

noncomputable section

namespace Cert.KernelIdeal.Reg3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices, decided over the 25 grid points: the tiled operand and the result are at row block t, column
    block 0; the other operand is always at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The tiled operand's block at point t holds rows 6800·t … of the array as the region finds it. -/
theorem iblk_0_apply (c : Dev nD) (t : Fin cfg3.N) (p : Fin 6800) (k : Fin 40) (i : S170000x40.Idx)
    (h0 : (i 0).val = 6800 * t.val + p.val) (h1 : (i 1).val = k.val) :
    (iblk3 V c 0 t : Vec Ideal S6800x40 .f32) (ix2 p k) = (V c main_v59 : S170000x40.Idx → EReal) i := by
  obtain ⟨e0, e1, _, _, _, _⟩ := idx_facts t
  unfold iblk3
  rw [View.read_apply]
  show V c main_v59 _ = V c main_v59 _
  refine congrArg _ (funext fun a => Fin.ext ?_)
  match a with
  | ⟨0, _⟩ => show win3_0.index t 0 * 6800 + 1 * p.val = (i 0).val; rw [e0, h0]; omega
  | ⟨1, _⟩ => show win3_0.index t 1 * 40 + 1 * k.val = (i 1).val; rw [e1, h1]; omega

/-- The row's block at every point is the whole row. -/
theorem iblk_1_apply (c : Dev nD) (t : Fin cfg3.N) (z : Fin 1) (q : Fin 40) :
    (iblk3 V c 1 t : Vec Ideal S1x40 .f32) (ix2 z q) = (V c main_v60 : S1x40.Idx → EReal) (ix2 z q) := by
  obtain ⟨_, _, e2, e3, _, _⟩ := idx_facts t
  unfold iblk3
  rw [View.read_apply]
  show V c main_v60 _ = V c main_v60 _
  refine congrArg _ (funext fun a => Fin.ext ?_)
  match a with
  | ⟨0, _⟩ => show win3_1.index t 0 * 1 + 1 * z.val = z.val; rw [e2]; omega
  | ⟨1, _⟩ => show win3_1.index t 1 * 40 + 1 * q.val = q.val; rw [e3]; omega

/-- What point t writes back is block t of the entry-wise function of the two arrays. -/
theorem flushed_eq (c : Dev nD) (t : Fin cfg3.N) :
    (dat3 V c).flushed 2 t = ((cfg3.win 2).blk t).view.read (Elt Ideal)
      (Cert.GcnSpec.addRow (V c main_v59 : S170000x40.Idx → EReal) (V c main_v60 : S1x40.Idx → EReal)) := by
  show (cfg3.win 2).cut (grid3.coords t) ((dat3 V c).after 2 t) = _
  rw [after3_2]
  unfold out3_2
  rw [View.canon_unit_zero hz]
  simp only [View.ld_unit_zero (S := S6800x40) hz, View.ld_unit_zero (S := S1x40) hz]
  obtain ⟨e0, e1, e2, e3, e4, e5⟩ := idx_facts t
  refine funext fun (j : S6800x40.Idx) => ?_
  show k3_pay1 (iblk3 V c 0 t) (iblk3 V c 1 t) j
    = Cert.GcnSpec.addRow (V c main_v59 : S170000x40.Idx → EReal) (V c main_v60 : S1x40.Idx → EReal) (((cfg3.win 2).blk t).view.emb j)
  obtain ⟨p, q, rfl⟩ : ∃ (p : Fin 6800) (q : Fin 40), j = ix2 p q := ⟨j 0, j 1, eq_ix2 j⟩
  refine (Blocks.pay3_apply (iblk3 V c 0 t) (iblk3 V c 1 t) p q).trans ?_
  unfold Cert.GcnSpec.addRow
  rw [iblk_0_apply V c t p q (((cfg3.win 2).blk t).view.emb (ix2 p q)) (by show win3_2.index t 0 * 6800 + 1 * p.val = _; rw [e4]; omega) (by show win3_2.index t 1 * 40 + 1 * q.val = _; rw [e5]; omega),
    iblk_1_apply V c t 0 q]
  have hq : (ix2 (n0 := 1) (n1 := 40) (0 : Fin 1) q) = ix2 (n0 := 1) (n1 := 40) (0 : Fin 1) ((((cfg3.win 2).blk t).view.emb (ix2 p q)) 1) :=
    congrArg (ix2 (n0 := 1) (n1 := 40) (0 : Fin 1)) (Fin.ext (by show q.val = win3_2.index t 1 * 40 + 1 * q.val; rw [e5]; omega))
  rw [hq]

/-- An index of the result is in point t's block iff each coordinate is in the block's range on its axis. -/
theorem mem_blk (t : Fin cfg3.N) (i : S170000x40.Idx) :
    i ∈ ((cfg3.win 2).blk t).view.set ↔ ∀ a : Fin 2, win3_2.index t a * S6800x40.size a ≤ (i a).val
      ∧ (i a).val < win3_2.index t a * S6800x40.size a + S6800x40.size a := by
  show i ∈ ((View.whole main_v61).slice (win3_2.rect t)).set ↔ _
  rw [View.set_slice_whole, Rect.mem_set_unit]
  exact Iff.rfl

/-- Every entry of the result is in some point's block: row r is in block r / 6800. -/
theorem cover (i : S170000x40.Idx) :
    ∃ t : Fin cfg3.N, (cfg3.win 2).flush t = true ∧ i ∈ ((cfg3.win 2).blk t).view.set := by
  have hi0 : (i 0).val < 170000 := (i 0).isLt
  have hi1 : (i 1).val < 40 := (i 1).isLt
  obtain ⟨t, ht⟩ : ∃ t : Fin cfg3.N, t.val = (i 0).val / 6800 :=
    ⟨⟨(i 0).val / 6800, by have hN : grid3.N = 25 := N_3; show (i 0).val / 6800 < grid3.N; omega⟩, rfl⟩
  obtain ⟨_, _, _, _, e4, e5⟩ := idx_facts t
  refine ⟨t, flush3_2 t, ?_⟩
  rw [mem_blk]
  intro a
  match a with
  | ⟨0, _⟩ => show win3_2.index t 0 * 6800 ≤ (i 0).val ∧ (i 0).val < win3_2.index t 0 * 6800 + 6800; rw [e4, ht]; omega
  | ⟨1, _⟩ => show win3_2.index t 1 * 40 ≤ (i 1).val ∧ (i 1).val < win3_2.index t 1 * 40 + 40; rw [e5]; omega

/-- The result array after the region: the entry-wise function of the two arrays as the region finds them. -/
theorem final (c : Dev nD) : (dat3 V c).arrAt 2 cfg3.N
    = Cert.GcnSpec.addRow (V c main_v59 : S170000x40.Idx → EReal) (V c main_v60 : S1x40.Idx → EReal) :=
  (dat3 V c).arrAt_eq_of_cover 2 _ (fun t _ => flushed_eq V c t) cover

end Cert.KernelIdeal.Reg3

end
-- ==== Proof.LibIndexEq.lean ====
/-
  An index of a one- or two-axis shape is determined by its coordinates: if the coordinates of `f` are those of
  `a` (and `b`), then `f` is the index built from them. Used to identify an index that a program spells by a
  case split on the axis with the index built from literal coordinates.
-/
import Idealize.ShloMosaic.Lib.ValueIdx

namespace LibIndexEq

open Idealize.ShloMosaic Idealize.ShloMosaic.ValueIdx

/-- A two-axis index with coordinates `a` and `b` is `ix2 a b`. -/
theorem idx2_eq {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A one-axis index with coordinate `a` is `ix1 a`. -/
theorem idx1_eq {n : ℕ} (f : (⟨1, ![n]⟩ : Shape).Idx) (a : Fin n) (h0 : (f 0).val = a.val) : f = ix1 a :=
  funext fun d => Fin.ext (by
    match d with
    | ⟨0, _⟩ => exact h0)

end LibIndexEq
-- ==== Proof.Bridge.lean ====
/-
  The reference's stages that the kernel computes in pipelined regions, as the entry-wise functions of Spec.lean.

  The reference multiplies by `dot_general`, adds a bias by two broadcasts ([b] → [1, b] → [n, b]) and an addition, and
  cuts at zero by a maximum with a broadcast zero. At exact arithmetic each of these, read at an entry, is what the
  kernel's regions leave: Σ_k x(r, k) · w(k, q); a(r, q) + b(q); max(a(r, q) + b(q), 0). The kernel spells the bias
  row as the vector b cast to [1, b], whose entry (0, q) is b(q): that is the one re-layout met here.
-/
import proofs.«102843_j84138409329232_1_alg».proof.Proof.RefRead
import proofs.«102843_j84138409329232_1_alg».proof.Proof.Spec
import proofs.«102843_j84138409329232_1_alg».proof.Proof.LibRowOps
import proofs.«102843_j84138409329232_1_alg».proof.Proof.LibIndexEq
import Idealize.ShloMosaic.Lib.ValueIdx
import Idealize.ShloMosaic.PureOps.Ideal.Laws

noncomputable section

namespace Cert.ReferenceIdeal.Bridge

open Cert.ReferenceIdeal Cert.ReferenceIdeal.ReadP Idealize.ShloMosaic Idealize.ShloMosaic.ValueIdx Cert.GcnSpec

/-- The first layer's product `x @ W1`. -/
theorem prod1 (x0 : S170000x128.Idx → EReal) (x1 : S128x128.Idx → EReal) :
    matProd x0 x1 = val_main_v7 (F := Ideal) x0 x1 := by
  funext i
  rw [val_main_v7_apply]
  unfold matProd
  refine Finset.sum_congr rfl fun k _ => ?_
  rw [LibIndexEq.idx2_eq (lidx_main_v7 i k) (i 0) k rfl rfl, LibIndexEq.idx2_eq (ridx_main_v7 i k) k (i 1) rfl rfl]

/-- The first layer's bias and cut at zero, the bias row spelt as the vector cast to [1, 128]. -/
theorem biasRelu1 (x0 : S170000x128.Idx → EReal) (x1 : S128x128.Idx → EReal) (x2 : S128.Idx → EReal)
    (x5 : S2x1200000.Idx → BitVec 32) (h : S128.ShapeCasts S1x128) :
    addRowRelu (val_main_v43 (F := Ideal) x0 x1 x5) (shapeCast S1x128 x2 h) = val_main_v47 (F := Ideal) x0 x1 x2 x5 := by
  funext i
  obtain ⟨r, q, rfl⟩ : ∃ (r : Fin 170000) (q : Fin 128), i = ix2 r q := ⟨i 0, i 1, eq_ix2 i⟩
  rw [val_main_v47_apply, val_main_v46_apply, val_main_v45_apply, val_main_v44_apply, val_main_call1_v0_apply,
    val_main_call1_cst_apply]
  unfold addRowRelu
  show max (_ + shapeCast S1x128 x2 h (ix2 (0 : Fin 1) q)) 0 = max (_ + x2 _) (Ideal.ofBits .f32 0x00000000#32)
  rw [LibRowOps.shapeCast_row_apply, Ideal.ofBits_zero_f32,
    LibIndexEq.idx1_eq (idx_main_v44 (idx_main_v45 (ix2 r q))) q rfl]

/-- The second layer's product `h @ W2`. -/
theorem prod2 (x0 : S170000x128.Idx → EReal) (x1 : S128x128.Idx → EReal) (x2 : S128.Idx → EReal)
    (x3 : S128x40.Idx → EReal) (x5 : S2x1200000.Idx → BitVec 32) :
    matProd (val_main_v47 (F := Ideal) x0 x1 x2 x5) x3 = val_main_v48 (F := Ideal) x0 x1 x2 x3 x5 := by
  funext i
  rw [val_main_v48_apply]
  unfold matProd
  refine Finset.sum_congr rfl fun k _ => ?_
  rw [LibIndexEq.idx2_eq (lidx_main_v48 i k) (i 0) k rfl rfl, LibIndexEq.idx2_eq (ridx_main_v48 i k) k (i 1) rfl rfl]

/-- The second layer's bias, the bias row spelt as the vector cast to [1, 40]. -/
theorem bias2 (x0 : S170000x128.Idx → EReal) (x1 : S128x128.Idx → EReal) (x2 : S128.Idx → EReal)
    (x3 : S128x40.Idx → EReal) (x4 : S40.Idx → EReal) (x5 : S2x1200000.Idx → BitVec 32) (h : S40.ShapeCasts S1x40) :
    addRow (val_main_v84 (F := Ideal) x0 x1 x2 x3 x5) (shapeCast S1x40 x4 h) = val_main_v87 (F := Ideal) x0 x1 x2 x3 x4 x5 := by
  funext i
  obtain ⟨r, q, rfl⟩ : ∃ (r : Fin 170000) (q : Fin 40), i = ix2 r q := ⟨i 0, i 1, eq_ix2 i⟩
  rw [val_main_v87_apply, val_main_v86_apply, val_main_v85_apply]
  unfold addRow
  show _ + shapeCast S1x40 x4 h (ix2 (0 : Fin 1) q) = _ + x4 _
  rw [LibRowOps.shapeCast_row_apply, LibIndexEq.idx1_eq (idx_main_v85 (idx_main_v86 (ix2 r q))) q rfl]

/-- Both layers normalise by the same edge weights: the second layer's recomputation is the first's, term for term. -/
theorem norm_again (x5 : S2x1200000.Idx → BitVec 32) : val_main_v71 (F := Ideal) x5 = val_main_v30 (F := Ideal) x5 := rfl

end Cert.ReferenceIdeal.Bridge

end
-- ==== Proof.KernelValue.lean ====
/-
  What the idealized kernel's result array holds: the reference's last stage of the arguments.

  The program alternates host stretches with four pipelined regions. Walking its boundaries in order, each buffer a
  later step reads is named as a stage of the reference:
    · the host prelude builds the edge lists with self-loops (sources, destinations) and the edge weights
      d(src)^(-1/2) · d(dst)^(-1/2) from the in-degrees — the same operations, in the same order, as the reference's;
    · region 0 is the first layer's product x · W1;
    · the next stretch gathers its rows by source, scales by the edge weight and sums by destination (again the
      reference's own operations), and casts the bias vector to a row;
    · region 1 adds the bias and cuts at zero, region 2 is the second layer's product, the last stretch aggregates
      as before, and region 3 adds the second bias.
  The reference recomputes the edge weights for its second layer; the kernel reuses the first layer's: the two are
  one term. A buffer no step in between writes keeps its contents, which is what the "kept" lemmas say.
-/
import proofs.«102843_j84138409329232_1_alg».proof.Proof.Gen.KernelIdeal.Frame
import proofs.«102843_j84138409329232_1_alg».proof.Proof.Region0
import proofs.«102843_j84138409329232_1_alg».proof.Proof.Region1
import proofs.«102843_j84138409329232_1_alg».proof.Proof.Region2
import proofs.«102843_j84138409329232_1_alg».proof.Proof.Region3
import proofs.«102843_j84138409329232_1_alg».proof.Proof.Bridge
import Idealize.ShloMosaic.Lib.StableHlo.Run

set_option maxRecDepth 16384
set_option maxHeartbeats 4000000

noncomputable section

namespace Cert.KernelIdeal.Result

open Cert.KernelIdeal Cert.KernelIdeal.Gen Idealize.ShloMosaic Idealize.ShloMosaic.TcCoe Idealize.SL.Sem
open Idealize.ShloMosaic.StableHlo Cert.GcnSpec

variable (m : (ℓ : Loc nD τ sig) → Buf (Elt Ideal) ℓ) (ρ : Dev nD → PrngReg) (c : Dev nD)

/-! ## The arguments, and the reference's stages at them -/

abbrev a0 : S170000x128.Idx → EReal := m ((c : Thread nD τ).loc main_arg0)
abbrev a1 : S128x128.Idx → EReal := m ((c : Thread nD τ).loc main_arg1)
abbrev a2 : S128.Idx → EReal := m ((c : Thread nD τ).loc main_arg2)
abbrev a3 : S128x40.Idx → EReal := m ((c : Thread nD τ).loc main_arg3)
abbrev a4 : S40.Idx → EReal := m ((c : Thread nD τ).loc main_arg4)
abbrev a5 : S2x1200000.Idx → BitVec 32 := m ((c : Thread nD τ).loc main_arg5)

/-! ## The host prelude (three stretches) -/

theorem s3_arg0 : W3 m ρ c (Proc.devRef .tc main_arg0) = a0 m c := by
  show StableHlo.after hostOps0_2 (StableHlo.after hostOps0_1 (StableHlo.after hostOps0 (W0 m ρ c))) (Proc.devRef .tc main_arg0) = _
  after_results
theorem s3_arg1 : W3 m ρ c (Proc.devRef .tc main_arg1) = a1 m c := by
  show StableHlo.after hostOps0_2 (StableHlo.after hostOps0_1 (StableHlo.after hostOps0 (W0 m ρ c))) (Proc.devRef .tc main_arg1) = _
  after_results
theorem s3_arg2 : W3 m ρ c (Proc.devRef .tc main_arg2) = a2 m c := by
  show StableHlo.after hostOps0_2 (StableHlo.after hostOps0_1 (StableHlo.after hostOps0 (W0 m ρ c))) (Proc.devRef .tc main_arg2) = _
  after_results
theorem s3_arg3 : W3 m ρ c (Proc.devRef .tc main_arg3) = a3 m c := by
  show StableHlo.after hostOps0_2 (StableHlo.after hostOps0_1 (StableHlo.after hostOps0 (W0 m ρ c))) (Proc.devRef .tc main_arg3) = _
  after_results
theorem s3_arg4 : W3 m ρ c (Proc.devRef .tc main_arg4) = a4 m c := by
  show StableHlo.after hostOps0_2 (StableHlo.after hostOps0_1 (StableHlo.after hostOps0 (W0 m ρ c))) (Proc.devRef .tc main_arg4) = _
  after_results

/-! The prelude in three steps: the edge lists and degrees; the guarded reciprocal square root; the edge weights. -/

/-- The sources with self-loops, as the reference builds them. -/
theorem w1_v3 : W1 m ρ c (Proc.devRef .tc main_v3) = Cert.ReferenceIdeal.ReadP.val_main_v3 (F := Ideal) (a5 m c) := by
  show StableHlo.after hostOps0 (W0 m ρ c) (Proc.devRef .tc main_v3) = _
  after_results_simp
  rfl
/-- The destinations with self-loops. -/
theorem w1_v6 : W1 m ρ c (Proc.devRef .tc main_v6) = Cert.ReferenceIdeal.ReadP.val_main_v6 (F := Ideal) (a5 m c) := by
  show StableHlo.after hostOps0 (W0 m ρ c) (Proc.devRef .tc main_v6) = _
  after_results_simp
  rfl
/-- Where the in-degree (self-loop included) is positive. -/
theorem w1_v12 : W1 m ρ c (Proc.devRef .tc main_v12) = Cert.ReferenceIdeal.ReadP.val_main_v13 (F := Ideal) (a5 m c) := by
  show StableHlo.after hostOps0 (W0 m ρ c) (Proc.devRef .tc main_v12) = _
  after_results_simp
  rfl
/-- The in-degree's reciprocal square root. -/
theorem w1_v13 : W1 m ρ c (Proc.devRef .tc main_v13) = Cert.ReferenceIdeal.ReadP.val_main_v14 (F := Ideal) (a5 m c) := by
  show StableHlo.after hostOps0 (W0 m ρ c) (Proc.devRef .tc main_v13) = _
  after_results_simp
  rfl
theorem w1_cst2 : W1 m ρ c (Proc.devRef .tc main_cst_2) = Cert.ReferenceIdeal.ReadP.val_main_cst_2 (F := Ideal) := by
  show StableHlo.after hostOps0 (W0 m ρ c) (Proc.devRef .tc main_cst_2) = _
  after_results_simp
  rfl

/-- The guarded select (jnp.where) at any contents: the three lines of the called function, read at its result. -/
theorem where_at (X : Valuation τ sig (Elt Ideal)) :
    StableHlo.after hostOps0_1 X (Proc.devRef .tc main_v14)
      = select (X (Proc.devRef .tc main_v12)) (X (Proc.devRef .tc main_v13))
          (broadcastInDim S170000 ![] bcast_S_S170000 (id (X (Proc.devRef .tc main_cst_2)))) := by
  after_results_simp
  rfl

/-- d^(-1/2) where the degree is positive, zero elsewhere. -/
theorem w2_v14 : W2 m ρ c (Proc.devRef .tc main_v14) = Cert.ReferenceIdeal.ReadP.val_main_v15 (F := Ideal) (a5 m c) := by
  show StableHlo.after hostOps0_1 (W1 m ρ c) (Proc.devRef .tc main_v14) = _
  rw [where_at, w1_v12, w1_v13, w1_cst2]
  rfl
theorem w2_v3 : W2 m ρ c (Proc.devRef .tc main_v3) = Cert.ReferenceIdeal.ReadP.val_main_v3 (F := Ideal) (a5 m c) := by
  have h := w1_v3 m ρ c
  show StableHlo.after hostOps0_1 (W1 m ρ c) (Proc.devRef .tc main_v3) = _
  generalize W1 m ρ c = X at h ⊢
  after_results_simp
  exact h
theorem w2_v6 : W2 m ρ c (Proc.devRef .tc main_v6) = Cert.ReferenceIdeal.ReadP.val_main_v6 (F := Ideal) (a5 m c) := by
  have h := w1_v6 m ρ c
  show StableHlo.after hostOps0_1 (W1 m ρ c) (Proc.devRef .tc main_v6) = _
  generalize W1 m ρ c = X at h ⊢
  after_results_simp
  exact h

theorem s3_v3 : W3 m ρ c (Proc.devRef .tc main_v3) = Cert.ReferenceIdeal.ReadP.val_main_v3 (F := Ideal) (a5 m c) := by
  have h := w2_v3 m ρ c
  show StableHlo.after hostOps0_2 (W2 m ρ c) (Proc.devRef .tc main_v3) = _
  generalize W2 m ρ c = X at h ⊢
  after_results_simp
  exact h
theorem s3_v6 : W3 m ρ c (Proc.devRef .tc main_v6) = Cert.ReferenceIdeal.ReadP.val_main_v6 (F := Ideal) (a5 m c) := by
  have h := w2_v6 m ρ c
  show StableHlo.after hostOps0_2 (W2 m ρ c) (Proc.devRef .tc main_v6) = _
  generalize W2 m ρ c = X at h ⊢
  after_results_simp
  exact h
/-- The edge weights d(src)^(-1/2) · d(dst)^(-1/2), zero where a degree is zero. -/
theorem s3_v29 : W3 m ρ c (Proc.devRef .tc main_v29) = Cert.ReferenceIdeal.ReadP.val_main_v30 (F := Ideal) (a5 m c) := by
  have h14 := w2_v14 m ρ c
  have h3 := w2_v3 m ρ c
  have h6 := w2_v6 m ρ c
  show StableHlo.after hostOps0_2 (W2 m ρ c) (Proc.devRef .tc main_v29) = _
  generalize W2 m ρ c = X at h14 h3 h6 ⊢
  after_results_simp
  rw [h14, h3, h6]
  rfl

/-! ## Kept: a buffer that a region or a stretch does not write -/

theorem k4_v3 : W4 m ρ c (Proc.devRef .tc main_v3) = W3 m ρ c (Proc.devRef .tc main_v3) := W4_of_ne m ρ c main_v3 (by decide)
theorem k5_v3 : W5 m ρ c (Proc.devRef .tc main_v3) = W4 m ρ c (Proc.devRef .tc main_v3) := by
  show StableHlo.after hostOps1 (W4 m ρ c) (Proc.devRef .tc main_v3) = _
  after_results
theorem k6_v3 : W6 m ρ c (Proc.devRef .tc main_v3) = W5 m ρ c (Proc.devRef .tc main_v3) := W6_of_ne m ρ c main_v3 (by decide)
theorem k7_v3 : W7 m ρ c (Proc.devRef .tc main_v3) = W6 m ρ c (Proc.devRef .tc main_v3) := W7_of_ne m ρ c main_v3 (by decide)
theorem k4_v6 : W4 m ρ c (Proc.devRef .tc main_v6) = W3 m ρ c (Proc.devRef .tc main_v6) := W4_of_ne m ρ c main_v6 (by decide)
theorem k5_v6 : W5 m ρ c (Proc.devRef .tc main_v6) = W4 m ρ c (Proc.devRef .tc main_v6) := by
  show StableHlo.after hostOps1 (W4 m ρ c) (Proc.devRef .tc main_v6) = _
  after_results
theorem k6_v6 : W6 m ρ c (Proc.devRef .tc main_v6) = W5 m ρ c (Proc.devRef .tc main_v6) := W6_of_ne m ρ c main_v6 (by decide)
theorem k7_v6 : W7 m ρ c (Proc.devRef .tc main_v6) = W6 m ρ c (Proc.devRef .tc main_v6) := W7_of_ne m ρ c main_v6 (by decide)
theorem k4_v29 : W4 m ρ c (Proc.devRef .tc main_v29) = W3 m ρ c (Proc.devRef .tc main_v29) := W4_of_ne m ρ c main_v29 (by decide)
theorem k5_v29 : W5 m ρ c (Proc.devRef .tc main_v29) = W4 m ρ c (Proc.devRef .tc main_v29) := by
  show StableHlo.after hostOps1 (W4 m ρ c) (Proc.devRef .tc main_v29) = _
  after_results
theorem k6_v29 : W6 m ρ c (Proc.devRef .tc main_v29) = W5 m ρ c (Proc.devRef .tc main_v29) := W6_of_ne m ρ c main_v29 (by decide)
theorem k7_v29 : W7 m ρ c (Proc.devRef .tc main_v29) = W6 m ρ c (Proc.devRef .tc main_v29) := W7_of_ne m ρ c main_v29 (by decide)
theorem k4_arg2 : W4 m ρ c (Proc.devRef .tc main_arg2) = W3 m ρ c (Proc.devRef .tc main_arg2) := W4_of_ne m ρ c main_arg2 (by decide)
theorem k5_arg2 : W5 m ρ c (Proc.devRef .tc main_arg2) = W4 m ρ c (Proc.devRef .tc main_arg2) := by
  show StableHlo.after hostOps1 (W4 m ρ c) (Proc.devRef .tc main_arg2) = _
  after_results
theorem k6_arg2 : W6 m ρ c (Proc.devRef .tc main_arg2) = W5 m ρ c (Proc.devRef .tc main_arg2) := W6_of_ne m ρ c main_arg2 (by decide)
theorem k7_arg2 : W7 m ρ c (Proc.devRef .tc main_arg2) = W6 m ρ c (Proc.devRef .tc main_arg2) := W7_of_ne m ρ c main_arg2 (by decide)
theorem k4_arg3 : W4 m ρ c (Proc.devRef .tc main_arg3) = W3 m ρ c (Proc.devRef .tc main_arg3) := W4_of_ne m ρ c main_arg3 (by decide)
theorem k5_arg3 : W5 m ρ c (Proc.devRef .tc main_arg3) = W4 m ρ c (Proc.devRef .tc main_arg3) := by
  show StableHlo.after hostOps1 (W4 m ρ c) (Proc.devRef .tc main_arg3) = _
  after_results
theorem k6_arg3 : W6 m ρ c (Proc.devRef .tc main_arg3) = W5 m ρ c (Proc.devRef .tc main_arg3) := W6_of_ne m ρ c main_arg3 (by decide)
theorem k4_arg4 : W4 m ρ c (Proc.devRef .tc main_arg4) = W3 m ρ c (Proc.devRef .tc main_arg4) := W4_of_ne m ρ c main_arg4 (by decide)
theorem k5_arg4 : W5 m ρ c (Proc.devRef .tc main_arg4) = W4 m ρ c (Proc.devRef .tc main_arg4) := by
  show StableHlo.after hostOps1 (W4 m ρ c) (Proc.devRef .tc main_arg4) = _
  after_results
theorem k6_arg4 : W6 m ρ c (Proc.devRef .tc main_arg4) = W5 m ρ c (Proc.devRef .tc main_arg4) := W6_of_ne m ρ c main_arg4 (by decide)
theorem k7_arg4 : W7 m ρ c (Proc.devRef .tc main_arg4) = W6 m ρ c (Proc.devRef .tc main_arg4) := W7_of_ne m ρ c main_arg4 (by decide)

theorem e4_v3 : W4 m ρ c (Proc.devRef .tc main_v3) = Cert.ReferenceIdeal.ReadP.val_main_v3 (F := Ideal) (a5 m c) := (k4_v3 m ρ c).trans (s3_v3 m ρ c)
theorem e4_v6 : W4 m ρ c (Proc.devRef .tc main_v6) = Cert.ReferenceIdeal.ReadP.val_main_v6 (F := Ideal) (a5 m c) := (k4_v6 m ρ c).trans (s3_v6 m ρ c)
theorem e4_v29 : W4 m ρ c (Proc.devRef .tc main_v29) = Cert.ReferenceIdeal.ReadP.val_main_v30 (F := Ideal) (a5 m c) := (k4_v29 m ρ c).trans (s3_v29 m ρ c)
theorem e4_arg2 : W4 m ρ c (Proc.devRef .tc main_arg2) = a2 m c := (k4_arg2 m ρ c).trans (s3_arg2 m ρ c)
theorem e6_arg3 : W6 m ρ c (Proc.devRef .tc main_arg3) = a3 m c :=
  (k6_arg3 m ρ c).trans ((k5_arg3 m ρ c).trans ((k4_arg3 m ρ c).trans (s3_arg3 m ρ c)))
theorem e7_arg4 : W7 m ρ c (Proc.devRef .tc main_arg4) = a4 m c :=
  (k7_arg4 m ρ c).trans ((k6_arg4 m ρ c).trans ((k5_arg4 m ρ c).trans ((k4_arg4 m ρ c).trans (s3_arg4 m ρ c))))
theorem e7_v3 : W7 m ρ c (Proc.devRef .tc main_v3) = Cert.ReferenceIdeal.ReadP.val_main_v3 (F := Ideal) (a5 m c) :=
  (k7_v3 m ρ c).trans ((k6_v3 m ρ c).trans ((k5_v3 m ρ c).trans (e4_v3 m ρ c)))
theorem e7_v6 : W7 m ρ c (Proc.devRef .tc main_v6) = Cert.ReferenceIdeal.ReadP.val_main_v6 (F := Ideal) (a5 m c) :=
  (k7_v6 m ρ c).trans ((k6_v6 m ρ c).trans ((k5_v6 m ρ c).trans (e4_v6 m ρ c)))
theorem e7_v29 : W7 m ρ c (Proc.devRef .tc main_v29) = Cert.ReferenceIdeal.ReadP.val_main_v30 (F := Ideal) (a5 m c) :=
  (k7_v29 m ρ c).trans ((k6_v29 m ρ c).trans ((k5_v29 m ρ c).trans (e4_v29 m ρ c)))

/-! ## The first layer -/

/-- Region 0 leaves x · W1. -/
theorem s4_v30 : W4 m ρ c (Proc.devRef .tc main_v30) = Cert.ReferenceIdeal.ReadP.val_main_v7 (F := Ideal) (a0 m c) (a1 m c) := by
  refine (W4_arr m ρ c 2).trans ?_
  refine (Reg0.final (V3 m ρ) c).trans ?_
  show matProd (W3 m ρ c (Proc.devRef .tc main_arg0) : S170000x128.Idx → EReal) (W3 m ρ c (Proc.devRef .tc main_arg1) : S128x128.Idx → EReal) = _
  rw [s3_arg0, s3_arg1]
  exact Cert.ReferenceIdeal.Bridge.prod1 _ _

/-- The aggregation over edges of the first layer. -/
theorem s5_v43 : W5 m ρ c (Proc.devRef .tc main_v43) = Cert.ReferenceIdeal.ReadP.val_main_v43 (F := Ideal) (a0 m c) (a1 m c) (a5 m c) := by
  show StableHlo.after hostOps1 (W4 m ρ c) (Proc.devRef .tc main_v43) = _
  after_results_simp
  rw [s4_v30, e4_v3, e4_v6, e4_v29]
  rfl

/-- The first bias as a row. -/
theorem s5_v44 : W5 m ρ c (Proc.devRef .tc main_v44) = shapeCast S1x128 (a2 m c) shapeCasts_S128_S1x128 := by
  show StableHlo.after hostOps1 (W4 m ρ c) (Proc.devRef .tc main_v44) = _
  after_results
  rw [e4_arg2]
  rfl

/-- Region 1 leaves relu(aggregate + b1). -/
theorem s6_v45 : W6 m ρ c (Proc.devRef .tc main_v45) = Cert.ReferenceIdeal.ReadP.val_main_v47 (F := Ideal) (a0 m c) (a1 m c) (a2 m c) (a5 m c) := by
  refine (W6_arr m ρ c 2).trans ?_
  refine (Reg1.final (V5 m ρ) c).trans ?_
  show addRowRelu (W5 m ρ c (Proc.devRef .tc main_v43) : S170000x128.Idx → EReal) (W5 m ρ c (Proc.devRef .tc main_v44) : S1x128.Idx → EReal) = _
  rw [s5_v43, s5_v44]
  exact Cert.ReferenceIdeal.Bridge.biasRelu1 _ _ _ _ _

/-! ## The second layer -/

/-- Region 2 leaves h · W2. -/
theorem s7_v46 : W7 m ρ c (Proc.devRef .tc main_v46) = Cert.ReferenceIdeal.ReadP.val_main_v48 (F := Ideal) (a0 m c) (a1 m c) (a2 m c) (a3 m c) (a5 m c) := by
  refine (W7_arr m ρ c 2).trans ?_
  refine (Reg2.final (V6 m ρ) c).trans ?_
  show matProd (W6 m ρ c (Proc.devRef .tc main_v45) : S170000x128.Idx → EReal) (W6 m ρ c (Proc.devRef .tc main_arg3) : S128x40.Idx → EReal) = _
  rw [s6_v45, e6_arg3]
  exact Cert.ReferenceIdeal.Bridge.prod2 _ _ _ _ _

/-- The aggregation over edges of the second layer, with the first layer's edge weights. -/
theorem s8_v59 : W8 m ρ c (Proc.devRef .tc main_v59) = Cert.ReferenceIdeal.ReadP.val_main_v84 (F := Ideal) (a0 m c) (a1 m c) (a2 m c) (a3 m c) (a5 m c) := by
  show StableHlo.after hostOps3 (W7 m ρ c) (Proc.devRef .tc main_v59) = _
  after_results_simp
  rw [s7_v46, e7_v3, e7_v6, e7_v29, ← Cert.ReferenceIdeal.Bridge.norm_again]
  rfl

/-- The second bias as a row. -/
theorem s8_v60 : W8 m ρ c (Proc.devRef .tc main_v60) = shapeCast S1x40 (a4 m c) shapeCasts_S40_S1x40 := by
  show StableHlo.after hostOps3 (W7 m ρ c) (Proc.devRef .tc main_v60) = _
  after_results
  rw [e7_arg4]
  rfl

/-- Region 3 leaves aggregate + b2: the result array is the reference's last stage of the arguments. -/
theorem result : W9 m ρ c (Proc.devRef .tc main_v61)
    = Cert.ReferenceIdeal.ReadP.val_main_v87 (F := Ideal) (a0 m c) (a1 m c) (a2 m c) (a3 m c) (a4 m c) (a5 m c) := by
  refine (W9_arr m ρ c 2).trans ?_
  refine (Reg3.final (V8 m ρ) c).trans ?_
  show addRow (W8 m ρ c (Proc.devRef .tc main_v59) : S170000x40.Idx → EReal) (W8 m ρ c (Proc.devRef .tc main_v60) : S1x40.Idx → EReal) = _
  rw [s8_v59, s8_v60]
  exact Cert.ReferenceIdeal.Bridge.bias2 _ _ _ _ _ _ _

end Cert.KernelIdeal.Result

end
-- ==== Proof.lean ====
/-
  A two-layer graph convolution, out = Â · relu(Â · (x · W1) + b1) · W2 + b2 with Â the degree-normalised adjacency with
  self-loops applied edge by edge (gather rows by source, scale by d(src)^(-1/2) · d(dst)^(-1/2), sum by destination).

  The kernel runs the two dense products and the two bias additions (the first with its cut at zero) as pipelined
  regions over 25 blocks of 6800 rows, and leaves the edge lists, the degrees, the edge weights and the two
  aggregations to the same host operations the reference uses; it computes the edge weights once where the
  reference computes them once per layer. At exact arithmetic rounding the products' operands to bf16 is the
  identity, a product into a zero accumulator is the reference's contraction, and the tiling is invisible, so both
  programs end with one and the same function of the arguments in their result arrays: the reference's last stage.
  No law of the extended reals is needed beyond reading each operation at an entry, so the precondition (finite float
  inputs) is not opened. The idealization rewrote nothing, so `preserves` is trivial.

  The three frames are the programs' frame runs (the reference's is its run with the result dropped); the value claim
  puts side by side the kernel's run with its result array named, that array's contents, and the reference's run.
-/
import proofs.«102843_j84138409329232_1_alg».proof.Defs
import proofs.«102843_j84138409329232_1_alg».proof.Proof.Gen.Kernel
import proofs.«102843_j84138409329232_1_alg».proof.Proof.Gen.Kernel.Skeleton
import proofs.«102843_j84138409329232_1_alg».proof.Proof.Gen.Kernel.Launch
import proofs.«102843_j84138409329232_1_alg».proof.Proof.Gen.Kernel.Points
import proofs.«102843_j84138409329232_1_alg».proof.Proof.Gen.Kernel.Frame
import proofs.«102843_j84138409329232_1_alg».proof.Proof.Gen.KernelIdeal
import proofs.«102843_j84138409329232_1_alg».proof.Proof.Gen.KernelIdeal.Skeleton
import proofs.«102843_j84138409329232_1_alg».proof.Proof.Gen.KernelIdeal.Launch
import proofs.«102843_j84138409329232_1_alg».proof.Proof.Gen.KernelIdeal.Points
import proofs.«102843_j84138409329232_1_alg».proof.Proof.Gen.KernelIdeal.Frame
import proofs.«102843_j84138409329232_1_alg».proof.Proof.Gen.ReferenceIdeal
import proofs.«102843_j84138409329232_1_alg».proof.Proof.Gen.Pre_finite_inputs
import proofs.«102843_j84138409329232_1_alg».proof.Proof.RefRead
import proofs.«102843_j84138409329232_1_alg».proof.Proof.KernelRun
import proofs.«102843_j84138409329232_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization is the program's own text read at exact arithmetic. -/
theorem preserves : Cert.preserves_Kernel_KernelIdeal := trivial

/-- Both result arrays end at the reference's last stage of the (agreeing) arguments. -/
theorem algebraic : Cert.algebraic_KernelIdeal_ReferenceIdeal := by
  intro m ρ m' ρ' _ hagree
  refine ⟨fun c => Cert.ReferenceIdeal.ReadP.val_main_v87 (F := Ideal) (Cert.KernelIdeal.Result.a0 m c) (Cert.KernelIdeal.Result.a1 m c)
      (Cert.KernelIdeal.Result.a2 m c) (Cert.KernelIdeal.Result.a3 m c) (Cert.KernelIdeal.Result.a4 m c) (Cert.KernelIdeal.Result.a5 m c), ?_, ?_⟩
  · exact (θ_run Cert.KernelIdeal.defs _ _).mono
      (fun _ h c => ⟨(h c).1.trans (Cert.KernelIdeal.Result.result m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v87_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
